-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x768 : Shape := ⟨2, ![256, 768]⟩
abbrev S16x256x64x256 : Shape := ⟨4, ![16, 256, 64, 256]⟩
abbrev S16x256x7 : Shape := ⟨3, ![16, 256, 7]⟩
abbrev S256x64x256 : Shape := ⟨3, ![256, 64, 256]⟩
abbrev S768x256 : Shape := ⟨2, ![768, 256]⟩
abbrev S256 : Shape := ⟨1, ![256]⟩
abbrev S7x256 : Shape := ⟨2, ![7, 256]⟩
abbrev S256x256 : Shape := ⟨2, ![256, 256]⟩
abbrev S_ : Shape := ⟨0, ![]⟩

class Facts : Prop where
  bcast_S_S256x768 : S_.BroadcastsInDim S256x768 (![] : Fin 0 → Fin S256x768.rank)
  reducesTo_S256x768_S_d0_1 : S256x768.ReducesTo [0, 1] S_
  h_S_ : 0 < S_.numel
  bcast_S_S16x256x64x256 : S_.BroadcastsInDim S16x256x64x256 (![] : Fin 0 → Fin S16x256x64x256.rank)
  reducesTo_S16x256x64x256_S_d0_1_2_3 : S16x256x64x256.ReducesTo [0, 1, 2, 3] S_
  bcast_S_S16x256x7 : S_.BroadcastsInDim S16x256x7 (![] : Fin 0 → Fin S16x256x7.rank)
  reducesTo_S16x256x7_S_d0_1_2 : S16x256x7.ReducesTo [0, 1, 2] S_
  bcast_S_S256x64x256 : S_.BroadcastsInDim S256x64x256 (![] : Fin 0 → Fin S256x64x256.rank)
  reducesTo_S256x64x256_S_d0_1_2 : S256x64x256.ReducesTo [0, 1, 2] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S7x256 : S_.BroadcastsInDim S7x256 (![] : Fin 0 → Fin S7x256.rank)
  reducesTo_S7x256_S_d0_1 : S7x256.ReducesTo [0, 1] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_arg8 : FVec F S256x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S768x256 .f32) (main_arg5 : FVec F S256 .f32) (main_arg6 : FVec F S7x256 .f32) (main_arg7 : FVec F S256 .f32) (main_arg8 : FVec F S256x256 .f32) (main_arg9 : FVec F S256 .f32) (main_v13 : IVec S_ 1) (main_v16 : IVec S256x64x256 1) : IVec S_ 1 :=
  let main_c_5 : IVec S_ 1 := constantI S_ 1 1#1
  let main_v17 : IVec S_ 1 := (fun x v => Host.reduce IntOp.andi x v reducesTo_S256x64x256_S_d0_1_2 h_S_) main_v16 main_c_5
  let main_v18 : IVec S_ 1 := andi main_v13 main_v17
  let main_v19 : FVec F S768x256 .f32 := Host.absf main_arg4
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S7x256 .f32 := Host.absf main_arg6
  let main_cst_10 : FVec F S_ .f32 := constant S_ .f32 0x7F800000#32
  let main_v30 : FVec F S7x256 .f32 := broadcastInDim S7x256 ![] bcast_S_S7x256 main_cst_10
  let main_v31 : IVec S7x256 1 := cmpf .olt main_v29 main_v30
  let main_c_11 : IVec S_ 1 := constantI S_ 1 1#1
  let main_v32 : IVec S_ 1 := (fun x v => Host.reduce IntOp.andi x v reducesTo_S7x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S256x768 .f32) (main_arg1 : FVec F S16x256x64x256 .f32) (main_arg2 : FVec F S16x256x7 .f32) (main_arg3 : FVec F S256x64x256 .f32) (main_arg4 : FVec F S768x256 .f32) (main_arg5 : FVec F S256 .f32) (main_arg6 : FVec F S7x256 .f32) (main_arg7 : FVec F S256 .f32) (main_arg8 : FVec F S256x256 .f32) (main_arg9 : FVec F S256 .f32) : IVec S_ 1 :=
  let main_v0 : FVec F S256x768 .f32 := Host.absf main_arg0
  let main_cst : FVec F S_ .f32 := constant S_ .f32 0x7F800000#32
  let main_v1 : FVec F S256x768 .f32 := broadcastInDim S256x768 ![] bcast_S_S256x768 main_cst
  let main_v2 : IVec S256x768 1 := cmpf .olt main_v0 main_v1
  let main_c : IVec S_ 1 := constantI S_ 1 1#1
  let main_v3 : IVec S_ 1 := (fun x v => Host.reduce IntOp.andi x v reducesTo_S256x768_S_d0_1 h_S_) main_v2 main_c
  let main_v4 : FVec F S16x256x64x256 .f32 := Host.absf main_arg1
  let main_cst_0 : FVec F S_ .f32 := constant S_ .f32 0x7F800000#32
  let main_v5 : FVec F S16x256x64x256 .f32 := broadcastInDim S16x256x64x256 ![] bcast_S_S16x256x64x256 main_cst_0
  let main_v6 : IVec S16x256x64x256 1 := cmpf .olt main_v4 main_v5
  let main_c_1 : IVec S_ 1 := constantI S_ 1 1#1
  let main_v7 : IVec S_ 1 := (fun x v => Host.reduce IntOp.andi x v reducesTo_S16x256x64x256_S_d0_1_2_3 h_S_) main_v6 main_c_1
  let main_v8 : IVec S_ 1 := andi main_v3 main_v7
  let main_v9 : FVec F S16x256x7 .f32 := Host.absf main_arg2
  let main_cst_2 : FVec F S_ .f32 := constant S_ .f32 0x7F800000#32
  let main_v10 : FVec F S16x256x7 .f32 := broadcastInDim S16x256x7 ![] bcast_S_S16x256x7 main_cst_2
  let main_v11 : IVec S16x256x7 1 := cmpf .olt main_v9 main_v10
  let main_c_3 : IVec S_ 1 := constantI S_ 1 1#1
  let main_v12 : IVec S_ 1 := (fun x v => Host.reduce IntOp.andi x v reducesTo_S16x256x7_S_d0_1_2 h_S_) main_v11 main_c_3
  let main_v13 : IVec S_ 1 := andi main_v8 main_v12
  let main_v14 : FVec F S256x64x256 .f32 := Host.absf main_arg3
  let main_cst_4 : FVec F S_ .f32 := constant S_ .f32 0x7F800000#32
  let main_v15 : FVec F S256x64x256 .f32 := broadcastInDim S256x64x256 ![] bcast_S_S256x64x256 main_cst_4
  let main_v16 : IVec S256x64x256 1 := cmpf .olt main_v14 main_v15
  fn_part1 (F := F) main_arg4 main_arg5 main_arg6 main_arg7 main_arg8 main_arg9 main_v13 main_v16
-- ==== Kernel.lean ====
abbrev S256x768 : Shape := ⟨2, ![256, 768]⟩
abbrev S16x256x64x256 : Shape := ⟨4, ![16, 256, 64, 256]⟩
abbrev S16x256x7 : Shape := ⟨3, ![16, 256, 7]⟩
abbrev S256x64x256 : Shape := ⟨3, ![256, 64, 256]⟩
abbrev S768x256 : Shape := ⟨2, ![768, 256]⟩
abbrev S256 : Shape := ⟨1, ![256]⟩
abbrev S7x256 : Shape := ⟨2, ![7, 256]⟩
abbrev S256x256 : Shape := ⟨2, ![256, 256]⟩
abbrev S1x256 : Shape := ⟨2, ![1, 256]⟩
abbrev S16384x256 : Shape := ⟨2, ![16384, 256]⟩
abbrev S4096x256 : Shape := ⟨2, ![4096, 256]⟩
abbrev S256x16x65x256 : Shape := ⟨4, ![256, 16, 65, 256]⟩
abbrev S1x64x64x256 : Shape := ⟨4, ![1, 64, 64, 256]⟩
abbrev S1x64x7 : Shape := ⟨3, ![1, 64, 7]⟩
abbrev S64x1x65x256 : Shape := ⟨4, ![64, 1, 65, 256]⟩
abbrev S64x64x256 : Shape := ⟨3, ![64, 64, 256]⟩
abbrev S64x7 : Shape := ⟨2, ![64, 7]⟩
abbrev S64x256 : Shape := ⟨2, ![64, 256]⟩
abbrev S64x1x64x256 : Shape := ⟨4, ![64, 1, 64, 256]⟩
abbrev S64x1x256 : Shape := ⟨3, ![64, 1, 256]⟩
abbrev S64x1x1x256 : Shape := ⟨4, ![64, 1, 1, 256]⟩
abbrev S256x1040x256 : Shape := ⟨3, ![256, 1040, 256]⟩
abbrev S256x1x256 : Shape := ⟨3, ![256, 1, 256]⟩
abbrev S256x1105x256 : Shape := ⟨3, ![256, 1105, 256]⟩

abbrev nBuf : Space → Nat
  | .hbm => 22
  | .vmem => 20
  | .smem => 0
  | _ => 0

abbrev bufTy : (tb : Table) → Fin (tcTables nBuf tb) → BufTy
  | .hbm, ⟨0, _⟩ => ⟨S256x768, .f32⟩
  | .hbm, ⟨1, _⟩ => ⟨S16x256x64x256, .f32⟩
  | .hbm, ⟨2, _⟩ => ⟨S16x256x7, .f32⟩
  | .hbm, ⟨3, _⟩ => ⟨S256x64x256, .f32⟩
  | .hbm, ⟨4, _⟩ => ⟨S768x256, .f32⟩
  | .hbm, ⟨5, _⟩ => ⟨S256, .f32⟩
  | .hbm, ⟨6, _⟩ => ⟨S7x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x256, .f32⟩
  | .hbm, ⟨11, _⟩ => ⟨S256x256, .f32⟩
  | .hbm, ⟨12, _⟩ => ⟨S16384x256, .f32⟩
  | .hbm, ⟨13, _⟩ => ⟨S1x256, .f32⟩
  | .hbm, ⟨14, _⟩ => ⟨S16384x256, .f32⟩
  | .hbm, ⟨15, _⟩ => ⟨S256x64x256, .f32⟩
  | .hbm, ⟨16, _⟩ => ⟨S1x256, .f32⟩
  | .hbm, ⟨17, _⟩ => ⟨S1x256, .f32⟩
  | .hbm, ⟨18, _⟩ => ⟨S256x16x65x256, .f32⟩
  | .hbm, ⟨19, _⟩ => ⟨S256x1040x256, .f32⟩
  | .hbm, ⟨20, _⟩ => ⟨S256x1x256, .f32⟩
  | .hbm, ⟨21, _⟩ => ⟨S256x1105x256, .f32⟩
  | .local _ .vmem, ⟨0, _⟩ => ⟨S256x768, .f32⟩
  | .local _ .vmem, ⟨1, _⟩ => ⟨S768x256, .f32⟩
  | .local _ .vmem, ⟨2, _⟩ => ⟨S1x256, .f32⟩
  | .local _ .vmem, ⟨3, _⟩ => ⟨S256x256, .f32⟩
  | .local _ .vmem, ⟨4, _⟩ => ⟨S4096x256, .f32⟩
  | .local _ .vmem, ⟨5, _⟩ => ⟨S4096x256, .f32⟩
  | .local _ .vmem, ⟨6, _⟩ => ⟨S256x256, .f32⟩
  | .local _ .vmem, ⟨7, _⟩ => ⟨S1x256, .f32⟩
  | .local _ .vmem, ⟨8, _⟩ => ⟨S4096x256, .f32⟩
  | .local _ .vmem, ⟨9, _⟩ => ⟨S4096x256, .f32⟩
  | .local _ .vmem, ⟨10, _⟩ => ⟨S1x64x64x256, .f32⟩
  | .local _ .vmem, ⟨11, _⟩ => ⟨S1x64x64x256, .f32⟩
  | .local _ .vmem, ⟨12, _⟩ => ⟨S1x64x7, .f32⟩
  | .local _ .vmem, ⟨13, _⟩ => ⟨S1x64x7, .f32⟩
  | .local _ .vmem, ⟨14, _⟩ => ⟨S256x256, .f32⟩
  | .local _ .vmem, ⟨15, _⟩ => ⟨S1x256, .f32⟩
  | .local _ .vmem, ⟨16, _⟩ => ⟨S7x256, .f32⟩
  | .local _ .vmem, ⟨17, _⟩ => ⟨S1x256, .f32⟩
  | .local _ .vmem, ⟨18, _⟩ => ⟨S64x1x65x256, .f32⟩
  | .local _ .vmem, ⟨19, _⟩ => ⟨S64x1x65x256, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 16], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x64x64x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x7 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S7x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S64x1x65x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  shapeCasts_S256_S1x256 : S256.ShapeCasts S1x256
  inb_S256x768_S256x768_0_0 : ∀ a, (![0, 0] : Fin 2 → Nat) a + S256x768.size a ≤ S256x768.size a
  h_S256x768 : 0 < S256x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256x64x256_S16384x256 : S256x64x256.ShapeCasts S16384x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S1x256_S4096x256 : S1x256.Broadcasts S4096x256
  shapeCasts_S16384x256_S256x64x256 : S16384x256.ShapeCasts S256x64x256
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S4096x256 : S64x64x256.ShapeCasts S4096x256
  shapeCasts_S4096x256_S64x64x256 : S4096x256.ShapeCasts S64x64x256
  inb_S1x64x7_S1x64x7_0_0_0 : ∀ a, (![0, 0, 0] : Fin 3 → Nat) a + S1x64x7.size a ≤ S1x64x7.size a
  h_S1x64x7 : 0 < S1x64x7.numel
  shapeCasts_S1x64x7_S64x7 : S1x64x7.ShapeCasts S64x7
  inb_S7x256_S7x256_0_0 : ∀ a, (![0, 0] : Fin 2 → Nat) a + S7x256.size a ≤ S7x256.size a
  h_S7x256 : 0 < S7x256.numel
  broadcasts_S1x256_S64x256 : S1x256.Broadcasts S64x256
  inb_S64x1x65x256_S64x1x64x256_0_0_0_0 : ∀ a, (![0, 0, 0, 0] : Fin 4 → Nat) a + S64x1x64x256.size a ≤ S64x1x65x256.size a
  h_S64x1x64x256 : 0 < S64x1x64x256.numel
  shapeCasts_S64x1x64x256_S64x64x256 : S64x1x64x256.ShapeCasts S64x64x256
  shapeCasts_S64x64x256_S64x1x64x256 : S64x64x256.ShapeCasts S64x1x64x256
  shapeCasts_S64x256_S64x1x256 : S64x256.ShapeCasts S64x1x256
  inb_S64x1x65x256_S64x1x1x256_0_0_64_0 : ∀ a, (![0, 0, 64, 0] : Fin 4 → Nat) a + S64x1x1x256.size a ≤ S64x1x65x256.size a
  h_S64x1x1x256 : 0 < S64x1x1x256.numel
  shapeCasts_S64x1x1x256_S64x1x256 : S64x1x1x256.ShapeCasts S64x1x256
  shapeCasts_S64x1x256_S64x1x1x256 : S64x1x256.ShapeCasts S64x1x1x256
  shapeCasts_S256x16x65x256_S256x1040x256 : S256x16x65x256.ShapeCasts S256x1040x256
  bcast_S256x256_S256x1x256_0_2 : S256x256.BroadcastsInDim S256x1x256 (![0, 2] : Fin 2 → Fin S256x1x256.rank)
  concatenates_S256x1x256_S256x1040x256_S256x64x256_S256x1105x256_d1 : Shape.Concatenates [S256x1x256, S256x1040x256, S256x64x256] S256x1105x256 1
  dot_S256x768_S768x256_S256x256_1_0_0_1_n_n_wf : DotDims.WF S256x768 S768x256 S256x256 [1] [0] [0] [1] [] []
  dot_S4096x256_S256x256_S4096x256_1_0_0_1_n_n_wf : DotDims.WF S4096x256 S256x256 S4096x256 [1] [0] [0] [1] [] []
  dot_S64x7_S7x256_S64x256_1_0_0_1_n_n_wf : DotDims.WF S64x7 S7x256 S64x256 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S256x768.size a
  hwx0_0 : ∀ i : grid0.Coords, EltTy.bits .f32 = 32 ∨ (Rect.block (s := S256x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S16384x256.size a
  hwx1_0 : ∀ i : grid1.Coords, EltTy.bits .f32 = 32 ∨ (Rect.block (s := S16384x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S16384x256.size a
  hwx1_3 : ∀ i : grid1.Coords, EltTy.bits .f32 = 32 ∨ (Rect.block (s := S16384x256) S4096x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x64x64x256.size a ≤ S16x256x64x256.size a
  hwx2_0 : ∀ i : grid2.Coords, EltTy.bits .f32 = 32 ∨ (Rect.block (s := S16x256x64x256) S1x64x64x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x7.size a ≤ S16x256x7.size a
  hwx2_1 : ∀ i : grid2.Coords, EltTy.bits .f32 = 32 ∨ (Rect.block (s := S16x256x7) S1x64x7.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S7x256.size a ≤ S7x256.size a
  hwx2_4 : ∀ i : grid2.Coords, EltTy.bits .f32 = 32 ∨ (Rect.block (s := S7x256) S7x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S64x1x65x256.size a ≤ S256x16x65x256.size a
  hwx2_6 : ∀ i : grid2.Coords, EltTy.bits .f32 = 32 ∨ (Rect.block (s := S256x16x65x256) S64x1x65x256.size (cc2_transform_6 i) (hinb2_6 i)).WholeWords (EltTy.packing .f32)

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S64x7_S7x256_S64x256_1_0_0_1_n_n : DotDims S64x7 S7x256 S64x256 where
  lhsContracting := [1]
  rhsContracting := [0]
  lhsNonContracting := [0]
  rhsNonContracting := [1]
  lhsBatch := []
  rhsBatch := []
  wf := dot_S64x7_S7x256_S64x256_1_0_0_1_n_n_wf

abbrev win0_0 : Pipeline.Window sig grid0 :=
  Pipeline.Window.ofSpec (Memref.whole main_arg0) S256x768.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 true false 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S1x64x64x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1x64x7.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S7x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S64x1x65x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S256x768 : Shape := ⟨2, ![256, 768]⟩
abbrev S16x256x64x256 : Shape := ⟨4, ![16, 256, 64, 256]⟩
abbrev S16x256x7 : Shape := ⟨3, ![16, 256, 7]⟩
abbrev S256x64x256 : Shape := ⟨3, ![256, 64, 256]⟩
abbrev S768x256 : Shape := ⟨2, ![768, 256]⟩
abbrev S256 : Shape := ⟨1, ![256]⟩
abbrev S7x256 : Shape := ⟨2, ![7, 256]⟩
abbrev S256x256 : Shape := ⟨2, ![256, 256]⟩
abbrev S1x256 : Shape := ⟨2, ![1, 256]⟩
abbrev S1x1x1x256 : Shape := ⟨4, ![1, 1, 1, 256]⟩
abbrev S16x256x256 : Shape := ⟨3, ![16, 256, 256]⟩
abbrev S1x1x256 : Shape := ⟨3, ![1, 1, 256]⟩
abbrev S16x256x1x256 : Shape := ⟨4, ![16, 256, 1, 256]⟩
abbrev S16x256x65x256 : Shape := ⟨4, ![16, 256, 65, 256]⟩
abbrev S256x16x65x256 : Shape := ⟨4, ![256, 16, 65, 256]⟩
abbrev S256x1040x256 : Shape := ⟨3, ![256, 1040, 256]⟩
abbrev S256x1x256 : Shape := ⟨3, ![256, 1, 256]⟩
abbrev S256x1105x256 : Shape := ⟨3, ![256, 1105, 256]⟩

abbrev nBuf : Space → Nat
  | .hbm => 32
  | .vmem => 0
  | .smem => 0
  | _ => 0

abbrev bufTy : (tb : Table) → Fin (tcTables nBuf tb) → BufTy
  | .hbm, ⟨0, _⟩ => ⟨S256x768, .f32⟩
  | .hbm, ⟨1, _⟩ => ⟨S16x256x64x256, .f32⟩
  | .hbm, ⟨2, _⟩ => ⟨S16x256x7, .f32⟩
  | .hbm, ⟨3, _⟩ => ⟨S256x64x256, .f32⟩
  | .hbm, ⟨4, _⟩ => ⟨S768x256, .f32⟩
  | .hbm, ⟨5, _⟩ => ⟨S256, .f32⟩
  | .hbm, ⟨6, _⟩ => ⟨S7x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S1x256, .f32⟩
  | .hbm, ⟨12, _⟩ => ⟨S256x256, .f32⟩
  | .hbm, ⟨13, _⟩ => ⟨S256x256, .f32⟩
  | .hbm, ⟨14, _⟩ => ⟨S16x256x64x256, .f32⟩
  | .hbm, ⟨15, _⟩ => ⟨S1x1x1x256, .f32⟩
  | .hbm, ⟨16, _⟩ => ⟨S16x256x64x256, .f32⟩
  | .hbm, ⟨17, _⟩ => ⟨S16x256x64x256, .f32⟩
  | .hbm, ⟨18, _⟩ => ⟨S16x256x256, .f32⟩
  | .hbm, ⟨19, _⟩ => ⟨S1x1x256, .f32⟩
  | .hbm, ⟨20, _⟩ => ⟨S16x256x256, .f32⟩
  | .hbm, ⟨21, _⟩ => ⟨S16x256x256, .f32⟩
  | .hbm, ⟨22, _⟩ => ⟨S256x64x256, .f32⟩
  | .hbm, ⟨23, _⟩ => ⟨S1x1x256, .f32⟩
  | .hbm, ⟨24, _⟩ => ⟨S256x64x256, .f32⟩
  | .hbm, ⟨25, _⟩ => ⟨S256x64x256, .f32⟩
  | .hbm, ⟨26, _⟩ => ⟨S16x256x1x256, .f32⟩
  | .hbm, ⟨27, _⟩ => ⟨S16x256x65x256, .f32⟩
  | .hbm, ⟨28, _⟩ => ⟨S256x16x65x256, .f32⟩
  | .hbm, ⟨29, _⟩ => ⟨S256x1040x256, .f32⟩
  | .hbm, ⟨30, _⟩ => ⟨S256x1x256, .f32⟩
  | .hbm, ⟨31, _⟩ => ⟨S256x1105x256, .f32⟩
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S256_S1x1x1x256_3 : S256.BroadcastsInDim S1x1x1x256 (![3] : Fin 1 → Fin S1x1x1x256.rank)
  bcast_S1x1x1x256_S16x256x64x256_0_1_2_3 : S1x1x1x256.BroadcastsInDim S16x256x64x256 (![0, 1, 2, 3] : Fin 4 → Fin S16x256x64x256.rank)
  bcast_S256_S1x1x256_2 : S256.BroadcastsInDim S1x1x256 (![2] : Fin 1 → Fin S1x1x256.rank)
  bcast_S1x1x256_S16x256x256_0_1_2 : S1x1x256.BroadcastsInDim S16x256x256 (![0, 1, 2] : Fin 3 → Fin S16x256x256.rank)
  bcast_S1x1x256_S256x64x256_0_1_2 : S1x1x256.BroadcastsInDim S256x64x256 (![0, 1, 2] : Fin 3 → Fin S256x64x256.rank)
  bcast_S16x256x256_S16x256x1x256_0_1_3 : S16x256x256.BroadcastsInDim S16x256x1x256 (![0, 1, 3] : Fin 3 → Fin S16x256x1x256.rank)
  concatenates_S16x256x64x256_S16x256x1x256_S16x256x65x256_d2 : Shape.Concatenates [S16x256x64x256, S16x256x1x256] S16x256x65x256 2
  transposes_S16x256x65x256_S256x16x65x256_1_0_2_3 : S16x256x65x256.Transposes [1, 0, 2, 3] S256x16x65x256
  shapeCasts_S256x16x65x256_S256x1040x256 : S256x16x65x256.ShapeCasts S256x1040x256
  bcast_S256x256_S256x1x256_0_2 : S256x256.BroadcastsInDim S256x1x256 (![0, 2] : Fin 2 → Fin S256x1x256.rank)
  concatenates_S256x1x256_S256x1040x256_S256x64x256_S256x1105x256_d1 : Shape.Concatenates [S256x1x256, S256x1040x256, S256x64x256] S256x1105x256 1
  dot_S256x768_S768x256_S256x256_1_0_0_1_n_n_wf : DotDims.WF S256x768 S768x256 S256x256 [1] [0] [0] [1] [] []
  dot_S16x256x64x256_S256x256_S16x256x64x256_3_0_012_1_n_n_wf : DotDims.WF S16x256x64x256 S256x256 S16x256x64x256 [3] [0] [0, 1, 2] [1] [] []
  dot_S16x256x7_S7x256_S16x256x256_2_0_01_1_n_n_wf : DotDims.WF S16x256x7 S7x256 S16x256x256 [2] [0] [0, 1] [1] [] []
  dot_S256x64x256_S256x256_S256x64x256_2_0_01_1_n_n_wf : DotDims.WF S256x64x256 S256x256 S256x64x256 [2] [0] [0, 1] [1] [] []

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def dot_S16x256x64x256_S256x256_S16x256x64x256_3_0_012_1_n_n : DotDims S16x256x64x256 S256x256 S16x256x64x256 where
  lhsContracting := [3]
  rhsContracting := [0]
  lhsNonContracting := [0, 1, 2]
  rhsNonContracting := [1]
  lhsBatch := []
  rhsBatch := []
  wf := dot_S16x256x64x256_S256x256_S16x256x64x256_3_0_012_1_n_n_wf
def dot_S16x256x7_S7x256_S16x256x256_2_0_01_1_n_n : DotDims S16x256x7 S7x256 S16x256x256 where
  lhsContracting := [2]
  rhsContracting := [0]
  lhsNonContracting := [0, 1]
  rhsNonContracting := [1]
  lhsBatch := []
  rhsBatch := []
  wf := dot_S16x256x7_S7x256_S16x256x256_2_0_01_1_n_n_wf
def dot_S256x64x256_S256x256_S256x64x256_2_0_01_1_n_n : DotDims S256x64x256 S256x256 S256x64x256 where
  lhsContracting := [2]
  rhsContracting := [0]
  lhsNonContracting := [0, 1]
  rhsNonContracting := [1]
  lhsBatch := []
  rhsBatch := []
  wf := dot_S256x64x256_S256x256_S256x64x256_2_0_01_1_n_n_wf

class Facts : Prop extends Facts₀ where

variable [Facts]
-- ==== Proof.Kernel.Reg0.lean ====
/-
  Region 0 of @main, the instruction projection: one grid point; the body loads the whole 256×768 block of
  instruction embeddings, the whole 768×256 weight and the 1×256 bias row, and stores their product plus the
  broadcast bias over the whole 256×256 output block. Stated at any entry contents `V` of the TensorCore's
  buffers and at any float instance: what the body leaves in the output buffer (`out0_3`), the body's triple,
  the pipeline's proof data and the body obligation.
-/
import proofs.«130885_j76063870812687_2_alg».proof.Proof.Gen.Kernel.Launch
import proofs.«130885_j76063870812687_2_alg».proof.Proof.Gen.Kernel.Skeleton
import proofs.«130885_j76063870812687_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every grid point, whether or
    not the pipeline fetched it there (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry contents at every grid point, whether or
    not the pipeline fetched it there (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry contents at every grid point, whether or
    not the pipeline fetched it there (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_0 : Rect S256x768 := Rect.unit (s := S256x768) ![0, 0] S256x768.size inb_S256x768_S256x768_0_0
abbrev r0_1 : Rect S768x256 := Rect.unit (s := S768x256) ![0, 0] S768x256.size inb_S768x256_S768x256_0_0
abbrev r0_2 : Rect S1x256 := Rect.unit (s := S1x256) ![0, 0] S1x256.size inb_S1x256_S1x256_0_0
abbrev r0_3 : Rect S256x256 := Rect.unit (s := S256x256) ![0, 0] S256x256.size inb_S256x256_S256x256_0_0

/-- The output buffer after the body, from the three input blocks: its one store, of the product plus bias. -/
def out0_3 (x0 : Vec F S256x768 .f32) (x1 : Vec F S768x256 .f32) (x2 : Vec F S1x256 .f32) : Vec F S256x256 .f32 :=
  View.canon [⟨r0_3, k0_pay1 (View.ld x0 r0_0) (View.ld x1 r0_1) (View.ld x2 r0_2)⟩]

/-- The one store is of the whole buffer, so it covers it. -/
theorem cover0_3 (p0 : Vec F S256x256 .f32) (y : S256x256.Idx) :
    ∃ pc ∈ ([⟨r0_3, p0⟩] : List (View.Piece (Elt F) S256x256 .f32)), y ∈ pc.1.set :=
  View.cover_of_tiled [⟨r0_3, p0⟩] S256x256.size (by rfl) y

/-! ## The body's triple -/

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords)
    (arg1 : Memref sig .tc .vmem S256x768 .f32) (harg1 : arg1.IsWhole) (arg2 : Memref sig .tc .vmem S768x256 .f32) (harg2 : arg2.IsWhole)
    (arg3 : Memref sig .tc .vmem S1x256 .f32) (harg3 : arg3.IsWhole) (arg4 : Memref sig .tc .vmem S256x256 .f32) (harg4 : arg4.IsWhole)
    (x0 : Vec F S256x768 .f32) (x1 : Vec F S768x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at a point each
    input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.Reg1.lean ====
/-
  Region 1 of @main, the current-object projection: four grid points; at each the body loads a 4096×256 block of
  flattened object embeddings, the whole 256×256 object weight and the 1×256 bias row, and stores their product plus
  the broadcast bias over the whole 4096×256 output block. Stated at any entry contents `V` of the TensorCore's
  buffers and at any float instance: what the body leaves in the output buffer (`out1_3`), the body's triple,
  the pipeline's proof data and the body obligation.
-/
import proofs.«130885_j76063870812687_2_alg».proof.Proof.Gen.Kernel.Launch
import proofs.«130885_j76063870812687_2_alg».proof.Proof.Gen.Kernel.Skeleton
import proofs.«130885_j76063870812687_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the 4096 rows of this point) holds its block of the entry contents at every grid point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight, fetched once: its block index never moves) holds its block at every grid point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias row, fetched once) holds its block at every grid point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_0 : Rect S4096x256 := Rect.unit (s := S4096x256) ![0, 0] S4096x256.size inb_S4096x256_S4096x256_0_0
abbrev r1_1 : Rect S256x256 := Rect.unit (s := S256x256) ![0, 0] S256x256.size inb_S256x256_S256x256_0_0
abbrev r1_2 : Rect S1x256 := Rect.unit (s := S1x256) ![0, 0] S1x256.size inb_S1x256_S1x256_0_0

/-- The output buffer after the body, from the three input blocks: its one store, of the product plus bias. -/
def out1_3 (x0 : Vec F S4096x256 .f32) (x1 : Vec F S256x256 .f32) (x2 : Vec F S1x256 .f32) : Vec F S4096x256 .f32 :=
  View.canon [⟨r1_0, k1_pay1 (View.ld x0 r1_0) (View.ld x1 r1_1) (View.ld x2 r1_2)⟩]

/-- The one store is of the whole buffer, so it covers it. -/
theorem cover1_3 (p0 : Vec F S4096x256 .f32) (y : S4096x256.Idx) :
    ∃ pc ∈ ([⟨r1_0, p0⟩] : List (View.Piece (Elt F) S4096x256 .f32)), y ∈ pc.1.set :=
  View.cover_of_tiled [⟨r1_0, p0⟩] S4096x256.size (by rfl) y

/-! ## The body's triple -/

set_option maxHeartbeats 1000000 in
/-- The body on whole staging memrefs, the inputs' at contents `x0 x1 x2` and the output's at anything, runs to the
    continuation holding the inputs' as they were and the output's at `out1_3` of them. -/
theorem sound_kernel1 (c : Dev nD) (E : Set ℕ) (i : grid1.Coords)
    (arg1 : Memref sig .tc .vmem S4096x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S4096x256 .f32) (harg4 : arg4.IsWhole)
    (x0 : Vec F S4096x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at a point each
    input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.Kernel.Reg2.lean ====
/-
  Region 2 of @main, the fused demonstration projection: a 4×16 grid over (batch tile, demonstration); at each point
  the body loads a 1×64×64×256 block of object embeddings and a 1×64×7 block of actions with the two weights and two
  bias rows, and fills the 64×1×65×256 output block by two stores: rows 0…63 of the 65 with the object product plus
  bias, row 64 with the action product plus bias. Stated at any entry contents `V` of the TensorCore's buffers and at
  any float instance: what the body leaves in the output buffer (`out2_6`), the body's triple, the pipeline's proof
  data and the body obligation.
-/
import proofs.«130885_j76063870812687_2_alg».proof.Proof.Gen.Kernel.Launch
import proofs.«130885_j76063870812687_2_alg».proof.Proof.Gen.Kernel.Skeleton
import proofs.«130885_j76063870812687_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (this point's object embeddings) holds its block of the entry contents at every grid point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (this point's actions) holds its block at every grid point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the object weight, fetched once: its block index never moves) holds its block at every grid point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the object bias row, fetched once) holds its block at every grid point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the action weight, fetched once) holds its block at every grid point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the action bias row, fetched once) holds its block at every grid point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every input is read whole; the output block is written in two parts -/

abbrev r2_0 : Rect S1x64x64x256 := Rect.unit (s := S1x64x64x256) ![0, 0, 0, 0] S1x64x64x256.size inb_S1x64x64x256_S1x64x64x256_0_0_0_0
abbrev r2_1 : Rect S1x64x7 := Rect.unit (s := S1x64x7) ![0, 0, 0] S1x64x7.size inb_S1x64x7_S1x64x7_0_0_0
abbrev r2_2 : Rect S256x256 := Rect.unit (s := S256x256) ![0, 0] S256x256.size inb_S256x256_S256x256_0_0
abbrev r2_3 : Rect S1x256 := Rect.unit (s := S1x256) ![0, 0] S1x256.size inb_S1x256_S1x256_0_0
abbrev r2_4 : Rect S7x256 := Rect.unit (s := S7x256) ![0, 0] S7x256.size inb_S7x256_S7x256_0_0
/-- Rows 0…63 of the 65: the projected objects. -/
abbrev s2_0 : Rect S64x1x65x256 := Rect.unit (s := S64x1x65x256) ![0, 0, 0, 0] S64x1x64x256.size inb_S64x1x65x256_S64x1x64x256_0_0_0_0
/-- Row 64 of the 65: the projected action. -/
abbrev s2_1 : Rect S64x1x65x256 := Rect.unit (s := S64x1x65x256) ![0, 0, 64, 0] S64x1x1x256.size inb_S64x1x65x256_S64x1x1x256_0_0_64_0

/-- The output buffer after the body, from the six input blocks: its two stores, the later one first. -/
def out2_6 (x0 : Vec F S1x64x64x256 .f32) (x1 : Vec F S1x64x7 .f32) (x2 : Vec F S256x256 .f32) (x3 : Vec F S1x256 .f32)
    (x4 : Vec F S7x256 .f32) (x5 : Vec F S1x256 .f32) : Vec F S64x1x65x256 .f32 :=
  View.canon [⟨s2_1, k2_pay2 (View.ld x1 r2_1) (View.ld x4 r2_4) (View.ld x5 r2_3)⟩,
    ⟨s2_0, k2_pay1 (View.ld x0 r2_0) (View.ld x2 r2_2) (View.ld x3 r2_3)⟩]

/-- The two stores cover the buffer: an index lies in rows 0…63 of the 65 or in row 64. -/
theorem cover2_6 (p1 : s2_1.shape.Idx → Elt F .f32) (p0 : s2_0.shape.Idx → Elt F .f32) (y : S64x1x65x256.Idx) :
    ∃ pc ∈ ([⟨s2_1, p1⟩, ⟨s2_0, p0⟩] : List (View.Piece (Elt F) S64x1x65x256 .f32)), y ∈ pc.1.set := by
  have h0 := (y 0).isLt
  have h1 := (y 1).isLt
  have h2 := (y 2).isLt
  have h3 := (y 3).isLt
  by_cases h : (y 2).val < 64
  · refine ⟨⟨s2_0, p0⟩, List.mem_cons_of_mem _ (List.mem_cons_self ..), ?_⟩
    rw [Rect.mem_set_unit]
    intro a
    match a with
    | ⟨0, _⟩ => exact ⟨Nat.zero_le _, by simpa using h0⟩
    | ⟨1, _⟩ => exact ⟨Nat.zero_le _, by simpa using h1⟩
    | ⟨2, _⟩ => exact ⟨Nat.zero_le _, by simpa using h⟩
    | ⟨3, _⟩ => exact ⟨Nat.zero_le _, by simpa using h3⟩
  · refine ⟨⟨s2_1, p1⟩, List.mem_cons_self .., ?_⟩
    rw [Rect.mem_set_unit]
    intro a
    match a with
    | ⟨0, _⟩ => exact ⟨Nat.zero_le _, by simpa using h0⟩
    | ⟨1, _⟩ => exact ⟨Nat.zero_le _, by simpa using h1⟩
    | ⟨2, _⟩ => exact ⟨by show 64 ≤ (y 2).val; omega, by show (y 2).val < 64 + 1; simpa using h2⟩
    | ⟨3, _⟩ => exact ⟨Nat.zero_le _, by simpa using h3⟩

/-! ## The body's triple -/

set_option maxHeartbeats 1000000 in
/-- The body on whole staging memrefs, the inputs' at contents `x0 … x5` and the output's at anything, runs to the
    continuation holding the inputs' as they were and the output's at `out2_6` of them. -/
theorem sound_kernel2 (c : Dev nD) (E : Set ℕ) (i : grid2.Coords)
    (arg2 : Memref sig .tc .vmem S1x64x64x256 .f32) (harg2 : arg2.IsWhole) (arg3 : Memref sig .tc .vmem S1x64x7 .f32) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S7x256 .f32) (harg6 : arg6.IsWhole) (arg7 : Memref sig .tc .vmem S1x256 .f32) (harg7 : arg7.IsWhole)
    (arg8 : Memref sig .tc .vmem S64x1x65x256 .f32) (harg8 : arg8.IsWhole)
    (x0 : Vec F S1x64x64x256 .f32) (x1 : Vec F S1x64x7 .f32) (x2 : Vec F S256x256 .f32) (x3 : Vec F S1x256 .f32)
    (x4 : Vec F S7x256 .f32) (x5 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out2_6 x0 x1 x2 x3 x4 x5)) -∗ K ⟨⟩))
      ⊢ wp frame (wpE (defs₀ (F := F)) Variants.none c none) E
          (cc2__demo_kernel i arg2 harg2 arg3 harg3 arg4 harg4 arg5 harg5 arg6 harg6 arg7 harg7 arg8 harg8) K := by
  simp only [cc2__demo_kernel_eq_skeleton]; unfold cc2__demo_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _ _)

/-! ## The pipeline's proof data -/

/-- The proof data of pipeline 2 on core `c`: the arrays as the region finds them; after the body at a point each
    input's buffer at its block and the output's at `out2_6` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.Kernel.Run.lean ====
/-
  The run of @main: four stretches of host operations around the three kernel regions. The TensorCore's buffer
  contents at each of the eight boundaries are a fold from the launch memory `m`: a host stretch applies its
  operations; a region leaves each of its arrays at what its pipeline's write-backs leave (the inputs as entered, the
  output the fold of every grid point's block) and every other buffer as entered. From one record per region and one
  host segment per stretch, every weakly fair execution of @main terminates without a fault in a memory that holds
  every unscoped buffer at the last boundary's contents `W7`; no stretch and no region writes an argument, so each
  argument's buffer reads back through the fold to its launch contents.
-/
import proofs.«130885_j76063870812687_2_alg».proof.Proof.Kernel.Reg0
import proofs.«130885_j76063870812687_2_alg».proof.Proof.Kernel.Reg1
import proofs.«130885_j76063870812687_2_alg».proof.Proof.Kernel.Reg2
import proofs.«130885_j76063870812687_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (the instruction bias reshaped to a row): region 0's entry. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second stretch (the current objects flattened to rows, the object bias a row): region 1's entry. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the third stretch (the current-object tokens back in three axes, the two biases as rows): region 2's entry. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After the last stretch (the demonstration tokens merged to one sequence axis, the instruction token given a unit
    sequence axis, the three pieces concatenated): the contents @main returns with. -/
abbrev W7 : Dev nD → Valuation τ sig (Elt F) := fun c => StableHlo.after hostOps3 (W6 m ρ c)

/-! ## What each item leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (U5 m ρ) c).arrAt_in w hw _).trans (A_eq2 (U5 m ρ) c w))

/-! ## The arguments end as launched -/

/-- The instruction embeddings: region 0 reads them through window 0. -/
theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of m ρ c main_arg0 (by decide)).trans <|
    (W4_of_ne m ρ c main_arg0 (by decide)).trans <| (W3_of m ρ c main_arg0 (by decide)).trans <| (W2_in m ρ c 0 rfl).trans <|
    (W1_of m ρ c main_arg0 (by decide)).trans rfl
/-- The demonstrations' object embeddings: region 2 reads them through window 0. -/
theorem W7_main_arg1 (c : Dev nD) : W7 m ρ c (Proc.devRef .tc main_arg1) = m ((c : Thread nD τ).loc main_arg1) :=
  (W7_of m ρ c main_arg1 (by decide)).trans <| (W6_in m ρ c 0 rfl).trans <| (W5_of m ρ c main_arg1 (by decide)).trans <|
    (W4_of_ne m ρ c main_arg1 (by decide)).trans <| (W3_of m ρ c main_arg1 (by decide)).trans <| (W2_of_ne m ρ c main_arg1 (by decide)).trans <|
    (W1_of m ρ c main_arg1 (by decide)).trans rfl
/-- The demonstrations' actions: region 2 reads them through window 1. -/
theorem W7_main_arg2 (c : Dev nD) : W7 m ρ c (Proc.devRef .tc main_arg2) = m ((c : Thread nD τ).loc main_arg2) :=
  (W7_of m ρ c main_arg2 (by decide)).trans <| (W6_in m ρ c 1 rfl).trans <| (W5_of m ρ c main_arg2 (by decide)).trans <|
    (W4_of_ne m ρ c main_arg2 (by decide)).trans <| (W3_of m ρ c main_arg2 (by decide)).trans <| (W2_of_ne m ρ c main_arg2 (by decide)).trans <|
    (W1_of m ρ c main_arg2 (by decide)).trans rfl
/-- The current object embeddings: only a host reshape reads them. -/
theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <| (W5_of m ρ c main_arg3 (by decide)).trans <|
    (W4_of_ne m ρ c main_arg3 (by decide)).trans <| (W3_of m ρ c main_arg3 (by decide)).trans <| (W2_of_ne m ρ c main_arg3 (by decide)).trans <|
    (W1_of m ρ c main_arg3 (by decide)).trans rfl
/-- The instruction weight: region 0 reads it through window 1. -/
theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <| (W5_of m ρ c main_arg4 (by decide)).trans <|
    (W4_of_ne m ρ c main_arg4 (by decide)).trans <| (W3_of m ρ c main_arg4 (by decide)).trans <| (W2_in m ρ c 1 rfl).trans <|
    (W1_of m ρ c main_arg4 (by decide)).trans rfl
/-- The instruction bias: only a host reshape reads it. -/
theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <| (W5_of m ρ c main_arg5 (by decide)).trans <|
    (W4_of_ne m ρ c main_arg5 (by decide)).trans <| (W3_of m ρ c main_arg5 (by decide)).trans <| (W2_of_ne m ρ c main_arg5 (by decide)).trans <|
    (W1_of m ρ c main_arg5 (by decide)).trans rfl
/-- The action weight: region 2 reads it through window 4. -/
theorem W7_main_arg6 (c : Dev nD) : W7 m ρ c (Proc.devRef .tc main_arg6) = m ((c : Thread nD τ).loc main_arg6) :=
  (W7_of m ρ c main_arg6 (by decide)).trans <| (W6_in m ρ c 4 rfl).trans <| (W5_of m ρ c main_arg6 (by decide)).trans <|
    (W4_of_ne m ρ c main_arg6 (by decide)).trans <| (W3_of m ρ c main_arg6 (by decide)).trans <| (W2_of_ne m ρ c main_arg6 (by decide)).trans <|
    (W1_of m ρ c main_arg6 (by decide)).trans rfl
/-- The action bias: only a host reshape reads it. -/
theorem W7_main_arg7 (c : Dev nD) : W7 m ρ c (Proc.devRef .tc main_arg7) = m ((c : Thread nD τ).loc main_arg7) :=
  (W7_of m ρ c main_arg7 (by decide)).trans <| (W6_of_ne m ρ c main_arg7 (by decide)).trans <| (W5_of m ρ c main_arg7 (by decide)).trans <|
    (W4_of_ne m ρ c main_arg7 (by decide)).trans <| (W3_of m ρ c main_arg7 (by decide)).trans <| (W2_of_ne m ρ c main_arg7 (by decide)).trans <|
    (W1_of m ρ c main_arg7 (by decide)).trans rfl
/-- The object weight: region 1 reads it through window 1, region 2 through window 2. -/
theorem W7_main_arg8 (c : Dev nD) : W7 m ρ c (Proc.devRef .tc main_arg8) = m ((c : Thread nD τ).loc main_arg8) :=
  (W7_of m ρ c main_arg8 (by decide)).trans <| (W6_in m ρ c 2 rfl).trans <| (W5_of m ρ c main_arg8 (by decide)).trans <|
    (W4_in m ρ c 1 rfl).trans <| (W3_of m ρ c main_arg8 (by decide)).trans <| (W2_of_ne m ρ c main_arg8 (by decide)).trans <|
    (W1_of m ρ c main_arg8 (by decide)).trans rfl
/-- The object bias: only host reshapes read it. -/
theorem W7_main_arg9 (c : Dev nD) : W7 m ρ c (Proc.devRef .tc main_arg9) = m ((c : Thread nD τ).loc main_arg9) :=
  (W7_of m ρ c main_arg9 (by decide)).trans <| (W6_of_ne m ρ c main_arg9 (by decide)).trans <| (W5_of m ρ c main_arg9 (by decide)).trans <|
    (W4_of_ne m ρ c main_arg9 (by decide)).trans <| (W3_of m ρ c main_arg9 (by decide)).trans <| (W2_of_ne m ρ c main_arg9 (by decide)).trans <|
    (W1_of m ρ c main_arg9 (by decide)).trans rfl

/-! ## The proof data family and the thread state -/

/-- No pipeline has a prefetched table. -/
abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the invariant and out;
    nothing is owed; the kernel has no semaphore of its own. -/
def reg0 : Pipeline.RegionSeg (pcfgs (F := F)) padm (pdats m ρ) () defs₀ 𝒱₀ Lv lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lv lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) padm (pdats m ρ) () defs₀ 𝒱₀ Lv lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lv lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) padm (pdats m ρ) () defs₀ 𝒱₀ Lv lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lv lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per stretch from its boundary's contents, a region per kernel call. -/
abbrev msegs : List (Pipeline.Seg (pcfgs (F := F)) padm (pdats m ρ) () defs₀ 𝒱₀ Lv lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (msegs m ρ) := (main_chain c).trans (by chain_rfl)

set_option backward.isDefEq.respectTransparency.types false in
/-- THE RUN: from any memory with zero counters every weakly fair execution of @main on the TensorCores terminates,
    nothing faulting, and the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) padm (pdats m ρ) () cellOf_inj emb₁ defs₀ 𝒱₀ Lv lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => sep_assoc'⟩)
    (hinit := by
      refine Pipeline.initEach Lv lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.Kernel.Fr

end
-- ==== Proof.KernelIdeal.Reg0.lean ====
/-
  Region 0 of @main, the instruction projection: one grid point; the body loads the whole 256×768 block of
  instruction embeddings, the whole 768×256 weight and the 1×256 bias row, and stores their product plus the
  broadcast bias over the whole 256×256 output block. Stated at any entry contents `V` of the TensorCore's
  buffers and at any float instance: what the body leaves in the output buffer (`out0_3`), the body's triple,
  the pipeline's proof data and the body obligation.
-/
import proofs.«130885_j76063870812687_2_alg».proof.Proof.Gen.KernelIdeal.Launch
import proofs.«130885_j76063870812687_2_alg».proof.Proof.Gen.KernelIdeal.Skeleton
import proofs.«130885_j76063870812687_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every grid point, whether or
    not the pipeline fetched it there (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry contents at every grid point, whether or
    not the pipeline fetched it there (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry contents at every grid point, whether or
    not the pipeline fetched it there (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_0 : Rect S256x768 := Rect.unit (s := S256x768) ![0, 0] S256x768.size inb_S256x768_S256x768_0_0
abbrev r0_1 : Rect S768x256 := Rect.unit (s := S768x256) ![0, 0] S768x256.size inb_S768x256_S768x256_0_0
abbrev r0_2 : Rect S1x256 := Rect.unit (s := S1x256) ![0, 0] S1x256.size inb_S1x256_S1x256_0_0
abbrev r0_3 : Rect S256x256 := Rect.unit (s := S256x256) ![0, 0] S256x256.size inb_S256x256_S256x256_0_0

/-- The output buffer after the body, from the three input blocks: its one store, of the product plus bias. -/
def out0_3 (x0 : Vec F S256x768 .f32) (x1 : Vec F S768x256 .f32) (x2 : Vec F S1x256 .f32) : Vec F S256x256 .f32 :=
  View.canon [⟨r0_3, k0_pay1 (View.ld x0 r0_0) (View.ld x1 r0_1) (View.ld x2 r0_2)⟩]

/-- The one store is of the whole buffer, so it covers it. -/
theorem cover0_3 (p0 : Vec F S256x256 .f32) (y : S256x256.Idx) :
    ∃ pc ∈ ([⟨r0_3, p0⟩] : List (View.Piece (Elt F) S256x256 .f32)), y ∈ pc.1.set :=
  View.cover_of_tiled [⟨r0_3, p0⟩] S256x256.size (by rfl) y

/-! ## The body's triple -/

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords)
    (arg1 : Memref sig .tc .vmem S256x768 .f32) (harg1 : arg1.IsWhole) (arg2 : Memref sig .tc .vmem S768x256 .f32) (harg2 : arg2.IsWhole)
    (arg3 : Memref sig .tc .vmem S1x256 .f32) (harg3 : arg3.IsWhole) (arg4 : Memref sig .tc .vmem S256x256 .f32) (harg4 : arg4.IsWhole)
    (x0 : Vec F S256x768 .f32) (x1 : Vec F S768x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at a point each
    input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.Reg1.lean ====
/-
  Region 1 of @main, the current-object projection: four grid points; at each the body loads a 4096×256 block of
  flattened object embeddings, the whole 256×256 object weight and the 1×256 bias row, and stores their product plus
  the broadcast bias over the whole 4096×256 output block. Stated at any entry contents `V` of the TensorCore's
  buffers and at any float instance: what the body leaves in the output buffer (`out1_3`), the body's triple,
  the pipeline's proof data and the body obligation.
-/
import proofs.«130885_j76063870812687_2_alg».proof.Proof.Gen.KernelIdeal.Launch
import proofs.«130885_j76063870812687_2_alg».proof.Proof.Gen.KernelIdeal.Skeleton
import proofs.«130885_j76063870812687_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the 4096 rows of this point) holds its block of the entry contents at every grid point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight, fetched once: its block index never moves) holds its block at every grid point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias row, fetched once) holds its block at every grid point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_0 : Rect S4096x256 := Rect.unit (s := S4096x256) ![0, 0] S4096x256.size inb_S4096x256_S4096x256_0_0
abbrev r1_1 : Rect S256x256 := Rect.unit (s := S256x256) ![0, 0] S256x256.size inb_S256x256_S256x256_0_0
abbrev r1_2 : Rect S1x256 := Rect.unit (s := S1x256) ![0, 0] S1x256.size inb_S1x256_S1x256_0_0

/-- The output buffer after the body, from the three input blocks: its one store, of the product plus bias. -/
def out1_3 (x0 : Vec F S4096x256 .f32) (x1 : Vec F S256x256 .f32) (x2 : Vec F S1x256 .f32) : Vec F S4096x256 .f32 :=
  View.canon [⟨r1_0, k1_pay1 (View.ld x0 r1_0) (View.ld x1 r1_1) (View.ld x2 r1_2)⟩]

/-- The one store is of the whole buffer, so it covers it. -/
theorem cover1_3 (p0 : Vec F S4096x256 .f32) (y : S4096x256.Idx) :
    ∃ pc ∈ ([⟨r1_0, p0⟩] : List (View.Piece (Elt F) S4096x256 .f32)), y ∈ pc.1.set :=
  View.cover_of_tiled [⟨r1_0, p0⟩] S4096x256.size (by rfl) y

/-! ## The body's triple -/

set_option maxHeartbeats 1000000 in
/-- The body on whole staging memrefs, the inputs' at contents `x0 x1 x2` and the output's at anything, runs to the
    continuation holding the inputs' as they were and the output's at `out1_3` of them. -/
theorem sound_kernel1 (c : Dev nD) (E : Set ℕ) (i : grid1.Coords)
    (arg1 : Memref sig .tc .vmem S4096x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S4096x256 .f32) (harg4 : arg4.IsWhole)
    (x0 : Vec F S4096x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at a point each
    input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KernelIdeal.Reg2.lean ====
/-
  Region 2 of @main, the fused demonstration projection: a 4×16 grid over (batch tile, demonstration); at each point
  the body loads a 1×64×64×256 block of object embeddings and a 1×64×7 block of actions with the two weights and two
  bias rows, and fills the 64×1×65×256 output block by two stores: rows 0…63 of the 65 with the object product plus
  bias, row 64 with the action product plus bias. Stated at any entry contents `V` of the TensorCore's buffers and at
  any float instance: what the body leaves in the output buffer (`out2_6`), the body's triple, the pipeline's proof
  data and the body obligation.
-/
import proofs.«130885_j76063870812687_2_alg».proof.Proof.Gen.KernelIdeal.Launch
import proofs.«130885_j76063870812687_2_alg».proof.Proof.Gen.KernelIdeal.Skeleton
import proofs.«130885_j76063870812687_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (this point's object embeddings) holds its block of the entry contents at every grid point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (this point's actions) holds its block at every grid point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the object weight, fetched once: its block index never moves) holds its block at every grid point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the object bias row, fetched once) holds its block at every grid point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the action weight, fetched once) holds its block at every grid point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the action bias row, fetched once) holds its block at every grid point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every input is read whole; the output block is written in two parts -/

abbrev r2_0 : Rect S1x64x64x256 := Rect.unit (s := S1x64x64x256) ![0, 0, 0, 0] S1x64x64x256.size inb_S1x64x64x256_S1x64x64x256_0_0_0_0
abbrev r2_1 : Rect S1x64x7 := Rect.unit (s := S1x64x7) ![0, 0, 0] S1x64x7.size inb_S1x64x7_S1x64x7_0_0_0
abbrev r2_2 : Rect S256x256 := Rect.unit (s := S256x256) ![0, 0] S256x256.size inb_S256x256_S256x256_0_0
abbrev r2_3 : Rect S1x256 := Rect.unit (s := S1x256) ![0, 0] S1x256.size inb_S1x256_S1x256_0_0
abbrev r2_4 : Rect S7x256 := Rect.unit (s := S7x256) ![0, 0] S7x256.size inb_S7x256_S7x256_0_0
/-- Rows 0…63 of the 65: the projected objects. -/
abbrev s2_0 : Rect S64x1x65x256 := Rect.unit (s := S64x1x65x256) ![0, 0, 0, 0] S64x1x64x256.size inb_S64x1x65x256_S64x1x64x256_0_0_0_0
/-- Row 64 of the 65: the projected action. -/
abbrev s2_1 : Rect S64x1x65x256 := Rect.unit (s := S64x1x65x256) ![0, 0, 64, 0] S64x1x1x256.size inb_S64x1x65x256_S64x1x1x256_0_0_64_0

/-- The output buffer after the body, from the six input blocks: its two stores, the later one first. -/
def out2_6 (x0 : Vec F S1x64x64x256 .f32) (x1 : Vec F S1x64x7 .f32) (x2 : Vec F S256x256 .f32) (x3 : Vec F S1x256 .f32)
    (x4 : Vec F S7x256 .f32) (x5 : Vec F S1x256 .f32) : Vec F S64x1x65x256 .f32 :=
  View.canon [⟨s2_1, k2_pay2 (View.ld x1 r2_1) (View.ld x4 r2_4) (View.ld x5 r2_3)⟩,
    ⟨s2_0, k2_pay1 (View.ld x0 r2_0) (View.ld x2 r2_2) (View.ld x3 r2_3)⟩]

/-- The two stores cover the buffer: an index lies in rows 0…63 of the 65 or in row 64. -/
theorem cover2_6 (p1 : s2_1.shape.Idx → Elt F .f32) (p0 : s2_0.shape.Idx → Elt F .f32) (y : S64x1x65x256.Idx) :
    ∃ pc ∈ ([⟨s2_1, p1⟩, ⟨s2_0, p0⟩] : List (View.Piece (Elt F) S64x1x65x256 .f32)), y ∈ pc.1.set := by
  have h0 := (y 0).isLt
  have h1 := (y 1).isLt
  have h2 := (y 2).isLt
  have h3 := (y 3).isLt
  by_cases h : (y 2).val < 64
  · refine ⟨⟨s2_0, p0⟩, List.mem_cons_of_mem _ (List.mem_cons_self ..), ?_⟩
    rw [Rect.mem_set_unit]
    intro a
    match a with
    | ⟨0, _⟩ => exact ⟨Nat.zero_le _, by simpa using h0⟩
    | ⟨1, _⟩ => exact ⟨Nat.zero_le _, by simpa using h1⟩
    | ⟨2, _⟩ => exact ⟨Nat.zero_le _, by simpa using h⟩
    | ⟨3, _⟩ => exact ⟨Nat.zero_le _, by simpa using h3⟩
  · refine ⟨⟨s2_1, p1⟩, List.mem_cons_self .., ?_⟩
    rw [Rect.mem_set_unit]
    intro a
    match a with
    | ⟨0, _⟩ => exact ⟨Nat.zero_le _, by simpa using h0⟩
    | ⟨1, _⟩ => exact ⟨Nat.zero_le _, by simpa using h1⟩
    | ⟨2, _⟩ => exact ⟨by show 64 ≤ (y 2).val; omega, by show (y 2).val < 64 + 1; simpa using h2⟩
    | ⟨3, _⟩ => exact ⟨Nat.zero_le _, by simpa using h3⟩

/-! ## The body's triple -/

set_option maxHeartbeats 1000000 in
/-- The body on whole staging memrefs, the inputs' at contents `x0 … x5` and the output's at anything, runs to the
    continuation holding the inputs' as they were and the output's at `out2_6` of them. -/
theorem sound_kernel2 (c : Dev nD) (E : Set ℕ) (i : grid2.Coords)
    (arg2 : Memref sig .tc .vmem S1x64x64x256 .f32) (harg2 : arg2.IsWhole) (arg3 : Memref sig .tc .vmem S1x64x7 .f32) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S7x256 .f32) (harg6 : arg6.IsWhole) (arg7 : Memref sig .tc .vmem S1x256 .f32) (harg7 : arg7.IsWhole)
    (arg8 : Memref sig .tc .vmem S64x1x65x256 .f32) (harg8 : arg8.IsWhole)
    (x0 : Vec F S1x64x64x256 .f32) (x1 : Vec F S1x64x7 .f32) (x2 : Vec F S256x256 .f32) (x3 : Vec F S1x256 .f32)
    (x4 : Vec F S7x256 .f32) (x5 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out2_6 x0 x1 x2 x3 x4 x5)) -∗ K ⟨⟩))
      ⊢ wp frame (wpE (defs₀ (F := F)) Variants.none c none) E
          (cc2__demo_kernel i arg2 harg2 arg3 harg3 arg4 harg4 arg5 harg5 arg6 harg6 arg7 harg7 arg8 harg8) K := by
  simp only [cc2__demo_kernel_eq_skeleton]; unfold cc2__demo_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _ _)

/-! ## The pipeline's proof data -/

/-- The proof data of pipeline 2 on core `c`: the arrays as the region finds them; after the body at a point each
    input's buffer at its block and the output's at `out2_6` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KernelIdeal.Run.lean ====
/-
  The run of @main: four stretches of host operations around the three kernel regions. The TensorCore's buffer
  contents at each of the eight boundaries are a fold from the launch memory `m`: a host stretch applies its
  operations; a region leaves each of its arrays at what its pipeline's write-backs leave (the inputs as entered, the
  output the fold of every grid point's block) and every other buffer as entered. From one record per region and one
  host segment per stretch, every weakly fair execution of @main terminates without a fault in a memory that holds
  every unscoped buffer at the last boundary's contents `W7`; no stretch and no region writes an argument, so each
  argument's buffer reads back through the fold to its launch contents.
-/
import proofs.«130885_j76063870812687_2_alg».proof.Proof.KernelIdeal.Reg0
import proofs.«130885_j76063870812687_2_alg».proof.Proof.KernelIdeal.Reg1
import proofs.«130885_j76063870812687_2_alg».proof.Proof.KernelIdeal.Reg2
import proofs.«130885_j76063870812687_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (the instruction bias reshaped to a row): region 0's entry. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second stretch (the current objects flattened to rows, the object bias a row): region 1's entry. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the third stretch (the current-object tokens back in three axes, the two biases as rows): region 2's entry. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After the last stretch (the demonstration tokens merged to one sequence axis, the instruction token given a unit
    sequence axis, the three pieces concatenated): the contents @main returns with. -/
abbrev W7 : Dev nD → Valuation τ sig (Elt F) := fun c => StableHlo.after hostOps3 (W6 m ρ c)

/-! ## What each item leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (U5 m ρ) c).arrAt_in w hw _).trans (A_eq2 (U5 m ρ) c w))

/-! ## The arguments end as launched -/

/-- The instruction embeddings: region 0 reads them through window 0. -/
theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of m ρ c main_arg0 (by decide)).trans <|
    (W4_of_ne m ρ c main_arg0 (by decide)).trans <| (W3_of m ρ c main_arg0 (by decide)).trans <| (W2_in m ρ c 0 rfl).trans <|
    (W1_of m ρ c main_arg0 (by decide)).trans rfl
/-- The demonstrations' object embeddings: region 2 reads them through window 0. -/
theorem W7_main_arg1 (c : Dev nD) : W7 m ρ c (Proc.devRef .tc main_arg1) = m ((c : Thread nD τ).loc main_arg1) :=
  (W7_of m ρ c main_arg1 (by decide)).trans <| (W6_in m ρ c 0 rfl).trans <| (W5_of m ρ c main_arg1 (by decide)).trans <|
    (W4_of_ne m ρ c main_arg1 (by decide)).trans <| (W3_of m ρ c main_arg1 (by decide)).trans <| (W2_of_ne m ρ c main_arg1 (by decide)).trans <|
    (W1_of m ρ c main_arg1 (by decide)).trans rfl
/-- The demonstrations' actions: region 2 reads them through window 1. -/
theorem W7_main_arg2 (c : Dev nD) : W7 m ρ c (Proc.devRef .tc main_arg2) = m ((c : Thread nD τ).loc main_arg2) :=
  (W7_of m ρ c main_arg2 (by decide)).trans <| (W6_in m ρ c 1 rfl).trans <| (W5_of m ρ c main_arg2 (by decide)).trans <|
    (W4_of_ne m ρ c main_arg2 (by decide)).trans <| (W3_of m ρ c main_arg2 (by decide)).trans <| (W2_of_ne m ρ c main_arg2 (by decide)).trans <|
    (W1_of m ρ c main_arg2 (by decide)).trans rfl
/-- The current object embeddings: only a host reshape reads them. -/
theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <| (W5_of m ρ c main_arg3 (by decide)).trans <|
    (W4_of_ne m ρ c main_arg3 (by decide)).trans <| (W3_of m ρ c main_arg3 (by decide)).trans <| (W2_of_ne m ρ c main_arg3 (by decide)).trans <|
    (W1_of m ρ c main_arg3 (by decide)).trans rfl
/-- The instruction weight: region 0 reads it through window 1. -/
theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <| (W5_of m ρ c main_arg4 (by decide)).trans <|
    (W4_of_ne m ρ c main_arg4 (by decide)).trans <| (W3_of m ρ c main_arg4 (by decide)).trans <| (W2_in m ρ c 1 rfl).trans <|
    (W1_of m ρ c main_arg4 (by decide)).trans rfl
/-- The instruction bias: only a host reshape reads it. -/
theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <| (W5_of m ρ c main_arg5 (by decide)).trans <|
    (W4_of_ne m ρ c main_arg5 (by decide)).trans <| (W3_of m ρ c main_arg5 (by decide)).trans <| (W2_of_ne m ρ c main_arg5 (by decide)).trans <|
    (W1_of m ρ c main_arg5 (by decide)).trans rfl
/-- The action weight: region 2 reads it through window 4. -/
theorem W7_main_arg6 (c : Dev nD) : W7 m ρ c (Proc.devRef .tc main_arg6) = m ((c : Thread nD τ).loc main_arg6) :=
  (W7_of m ρ c main_arg6 (by decide)).trans <| (W6_in m ρ c 4 rfl).trans <| (W5_of m ρ c main_arg6 (by decide)).trans <|
    (W4_of_ne m ρ c main_arg6 (by decide)).trans <| (W3_of m ρ c main_arg6 (by decide)).trans <| (W2_of_ne m ρ c main_arg6 (by decide)).trans <|
    (W1_of m ρ c main_arg6 (by decide)).trans rfl
/-- The action bias: only a host reshape reads it. -/
theorem W7_main_arg7 (c : Dev nD) : W7 m ρ c (Proc.devRef .tc main_arg7) = m ((c : Thread nD τ).loc main_arg7) :=
  (W7_of m ρ c main_arg7 (by decide)).trans <| (W6_of_ne m ρ c main_arg7 (by decide)).trans <| (W5_of m ρ c main_arg7 (by decide)).trans <|
    (W4_of_ne m ρ c main_arg7 (by decide)).trans <| (W3_of m ρ c main_arg7 (by decide)).trans <| (W2_of_ne m ρ c main_arg7 (by decide)).trans <|
    (W1_of m ρ c main_arg7 (by decide)).trans rfl
/-- The object weight: region 1 reads it through window 1, region 2 through window 2. -/
theorem W7_main_arg8 (c : Dev nD) : W7 m ρ c (Proc.devRef .tc main_arg8) = m ((c : Thread nD τ).loc main_arg8) :=
  (W7_of m ρ c main_arg8 (by decide)).trans <| (W6_in m ρ c 2 rfl).trans <| (W5_of m ρ c main_arg8 (by decide)).trans <|
    (W4_in m ρ c 1 rfl).trans <| (W3_of m ρ c main_arg8 (by decide)).trans <| (W2_of_ne m ρ c main_arg8 (by decide)).trans <|
    (W1_of m ρ c main_arg8 (by decide)).trans rfl
/-- The object bias: only host reshapes read it. -/
theorem W7_main_arg9 (c : Dev nD) : W7 m ρ c (Proc.devRef .tc main_arg9) = m ((c : Thread nD τ).loc main_arg9) :=
  (W7_of m ρ c main_arg9 (by decide)).trans <| (W6_of_ne m ρ c main_arg9 (by decide)).trans <| (W5_of m ρ c main_arg9 (by decide)).trans <|
    (W4_of_ne m ρ c main_arg9 (by decide)).trans <| (W3_of m ρ c main_arg9 (by decide)).trans <| (W2_of_ne m ρ c main_arg9 (by decide)).trans <|
    (W1_of m ρ c main_arg9 (by decide)).trans rfl

/-! ## The proof data family and the thread state -/

/-- No pipeline has a prefetched table. -/
abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the invariant and out;
    nothing is owed; the kernel has no semaphore of its own. -/
def reg0 : Pipeline.RegionSeg (pcfgs (F := F)) padm (pdats m ρ) () defs₀ 𝒱₀ Lv lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lv lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) padm (pdats m ρ) () defs₀ 𝒱₀ Lv lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lv lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) padm (pdats m ρ) () defs₀ 𝒱₀ Lv lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lv lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per stretch from its boundary's contents, a region per kernel call. -/
abbrev msegs : List (Pipeline.Seg (pcfgs (F := F)) padm (pdats m ρ) () defs₀ 𝒱₀ Lv lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (msegs m ρ) := (main_chain c).trans (by chain_rfl)

set_option backward.isDefEq.respectTransparency.types false in
/-- THE RUN: from any memory with zero counters every weakly fair execution of @main on the TensorCores terminates,
    nothing faulting, and the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) padm (pdats m ρ) () cellOf_inj emb₁ defs₀ 𝒱₀ Lv lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => sep_assoc'⟩)
    (hinit := by
      refine Pipeline.initEach Lv lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Fr

end
-- ==== Proof.Affine.lean ====
/-
  One token entry: a row of K inputs against column q of a K×C weight, plus a bias entry — the common form of every
  entry of every projection of both programs on the extended reals.
-/
import Idealize.ShloMosaic.Lib.ValueIdx
import Idealize.ShloMosaic.PureOps.Ideal

noncomputable section

namespace Cert.Tok

open Idealize.ShloMosaic Idealize.ShloMosaic.ValueIdx

/-- `∑ₖ row k · w (k, q) + bias`. -/
def lin {K C : Nat} (row : Fin K → EReal) (w : (⟨2, ![K, C]⟩ : Shape).Idx → EReal) (q : Fin C) (bias : EReal) : EReal :=
  (∑ k : Fin K, row k * w (ix2 k q)) + bias

/-- Equal rows, equal weights and equal bias entries give equal token entries. -/
theorem lin_congr {K C : Nat} {row row' : Fin K → EReal} {w w' : (⟨2, ![K, C]⟩ : Shape).Idx → EReal} {q : Fin C} {b b' : EReal}
    (hr : ∀ k, row k = row' k) (hw : w = w') (hb : b = b') : lin row w q b = lin row' w' q b' := by
  subst hw; subst hb
  exact congrArg (fun r => lin r w q b) (funext hr)

end Cert.Tok

end
-- ==== Proof.KernelPayload.lean ====
/-
  The kernel bodies' arithmetic at an index, on the extended reals. Each body multiplies a block of rows by a whole
  weight into the zero accumulator and adds the one-row bias broadcast down the rows; a change of float format is the
  identity and a cast to the same shape changes nothing, so every entry of every payload is one token entry
  `Tok.lin`: a row of the loaded block against a weight column, plus the bias row's entry. The demonstration kernel
  flattens its 64×64 rows to 4096 before the product and unflattens after: entry (b, n) of the 64×64 is row 64·b + n.
-/
import proofs.«130885_j76063870812687_2_alg».proof.Proof.Gen.KernelIdeal.Skeleton
import proofs.«130885_j76063870812687_2_alg».proof.Proof.Affine
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Tok

/-! ## The three matrix products into the zero accumulator, at an index: plain sums over the contracted axis -/

theorem mm0_l0 (i : S256x256.Idx) (q : dot_S256x768_S768x256_S256x256_1_0_0_1_n_n.contr.Idx) : (dot_S256x768_S768x256_S256x256_1_0_0_1_n_n.lhsIdx i q 0).val = (i 0).val := by
  unfold DotDims.lhsIdx
  rw [dif_neg (show ¬(0 : Fin S256x768.rank) ∈ dot_S256x768_S768x256_S256x256_1_0_0_1_n_n.lhsBatch by decide), dif_pos (show (0 : Fin S256x768.rank) ∈ dot_S256x768_S768x256_S256x256_1_0_0_1_n_n.lhsNonContracting by decide)]
  rfl
theorem mm0_r1 (i : S256x256.Idx) (q : dot_S256x768_S768x256_S256x256_1_0_0_1_n_n.contr.Idx) : (dot_S256x768_S768x256_S256x256_1_0_0_1_n_n.rhsIdx i q 1).val = (i 1).val := by
  unfold DotDims.rhsIdx
  rw [dif_neg (show ¬(1 : Fin S768x256.rank) ∈ dot_S256x768_S768x256_S256x256_1_0_0_1_n_n.rhsBatch by decide), dif_pos (show (1 : Fin S768x256.rank) ∈ dot_S256x768_S768x256_S256x256_1_0_0_1_n_n.rhsNonContracting by decide)]
  rfl
/-- The 256×768 by 768×256 product. -/
theorem mm0 (x : FVec Ideal S256x768 .bf16) (w : FVec Ideal S768x256 .bf16) (p : Fin 256) (q : Fin 256) :
    (matmul dot_S256x768_S768x256_S256x256_1_0_0_1_n_n none x w (constant S256x256 .f32 0x00000000#32) : FVec Ideal S256x256 .f32) (ix2 p q)
      = ∑ k : Fin 768, x (ix2 p k) * w (ix2 k q) := by
  refine (Ideal.matmul_constant_zero_apply dot_S256x768_S768x256_S256x256_1_0_0_1_n_n none x w (ix2 p q)).trans ?_
  rw [← Equiv.sum_comp (contrEquiv1 dot_S256x768_S768x256_S256x256_1_0_0_1_n_n 768 rfl rfl).symm]
  refine Finset.sum_congr rfl fun k _ => ?_
  have hk := contrEquiv1_symm_val dot_S256x768_S768x256_S256x256_1_0_0_1_n_n 768 rfl rfl k
  have el : dot_S256x768_S768x256_S256x256_1_0_0_1_n_n.lhsIdx (ix2 p q) ((contrEquiv1 dot_S256x768_S768x256_S256x256_1_0_0_1_n_n 768 rfl rfl).symm k) = ix2 p k := funext fun a => Fin.ext (by
    match a with
    | ⟨0, _⟩ => exact mm0_l0 _ _
    | ⟨1, _⟩ => exact (dot_S256x768_S768x256_S256x256_1_0_0_1_n_n.lhsIdx_val_of_single rfl _ _).trans hk)
  have er : dot_S256x768_S768x256_S256x256_1_0_0_1_n_n.rhsIdx (ix2 p q) ((contrEquiv1 dot_S256x768_S768x256_S256x256_1_0_0_1_n_n 768 rfl rfl).symm k) = ix2 k q := funext fun a => Fin.ext (by
    match a with
    | ⟨0, _⟩ => exact (dot_S256x768_S768x256_S256x256_1_0_0_1_n_n.rhsIdx_val_of_single rfl _ _).trans hk
    | ⟨1, _⟩ => exact mm0_r1 _ _)
  rw [el, er]

theorem mm1_l0 (i : S4096x256.Idx) (q : dot_S4096x256_S256x256_S4096x256_1_0_0_1_n_n.contr.Idx) : (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem mm1_r1 (i : S4096x256.Idx) (q : dot_S4096x256_S256x256_S4096x256_1_0_0_1_n_n.contr.Idx) : (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
/-- The 4096×256 by 256×256 product. -/
theorem mm1 (x : FVec Ideal S4096x256 .bf16) (w : FVec Ideal S256x256 .bf16) (p : Fin 4096) (q : Fin 256) :
    (matmul dot_S4096x256_S256x256_S4096x256_1_0_0_1_n_n none x w (constant S4096x256 .f32 0x00000000#32) : FVec Ideal S4096x256 .f32) (ix2 p q)
      = ∑ k : Fin 256, x (ix2 p k) * w (ix2 k q) := by
  refine (Ideal.matmul_constant_zero_apply dot_S4096x256_S256x256_S4096x256_1_0_0_1_n_n none x w (ix2 p q)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p q) ((contrEquiv1 dot_S4096x256_S256x256_S4096x256_1_0_0_1_n_n 256 rfl rfl).symm k) = ix2 p k := funext fun a => Fin.ext (by
    match a with
    | ⟨0, _⟩ => exact mm1_l0 _ _
    | ⟨1, _⟩ => exact (dot_S4096x256_S256x256_S4096x256_1_0_0_1_n_n.lhsIdx_val_of_single rfl _ _).trans hk)
  have er : dot_S4096x256_S256x256_S4096x256_1_0_0_1_n_n.rhsIdx (ix2 p q) ((contrEquiv1 dot_S4096x256_S256x256_S4096x256_1_0_0_1_n_n 256 rfl rfl).symm k) = ix2 k q := funext fun a => Fin.ext (by
    match a with
    | ⟨0, _⟩ => exact (dot_S4096x256_S256x256_S4096x256_1_0_0_1_n_n.rhsIdx_val_of_single rfl _ _).trans hk
    | ⟨1, _⟩ => exact mm1_r1 _ _)
  rw [el, er]

theorem mm2_l0 (i : S64x256.Idx) (q : dot_S64x7_S7x256_S64x256_1_0_0_1_n_n.contr.Idx) : (dot_S64x7_S7x256_S64x256_1_0_0_1_n_n.lhsIdx i q 0).val = (i 0).val := by
  unfold DotDims.lhsIdx
  rw [dif_neg (show ¬(0 : Fin S64x7.rank) ∈ dot_S64x7_S7x256_S64x256_1_0_0_1_n_n.lhsBatch by decide), dif_pos (show (0 : Fin S64x7.rank) ∈ dot_S64x7_S7x256_S64x256_1_0_0_1_n_n.lhsNonContracting by decide)]
  rfl
theorem mm2_r1 (i : S64x256.Idx) (q : dot_S64x7_S7x256_S64x256_1_0_0_1_n_n.contr.Idx) : (dot_S64x7_S7x256_S64x256_1_0_0_1_n_n.rhsIdx i q 1).val = (i 1).val := by
  unfold DotDims.rhsIdx
  rw [dif_neg (show ¬(1 : Fin S7x256.rank) ∈ dot_S64x7_S7x256_S64x256_1_0_0_1_n_n.rhsBatch by decide), dif_pos (show (1 : Fin S7x256.rank) ∈ dot_S64x7_S7x256_S64x256_1_0_0_1_n_n.rhsNonContracting by decide)]
  rfl
/-- The 64×7 by 7×256 product. -/
theorem mm2 (x : FVec Ideal S64x7 .bf16) (w : FVec Ideal S7x256 .bf16) (p : Fin 64) (q : Fin 256) :
    (matmul dot_S64x7_S7x256_S64x256_1_0_0_1_n_n none x w (constant S64x256 .f32 0x00000000#32) : FVec Ideal S64x256 .f32) (ix2 p q)
      = ∑ k : Fin 7, x (ix2 p k) * w (ix2 k q) := by
  refine (Ideal.matmul_constant_zero_apply dot_S64x7_S7x256_S64x256_1_0_0_1_n_n none x w (ix2 p q)).trans ?_
  rw [← Equiv.sum_comp (contrEquiv1 dot_S64x7_S7x256_S64x256_1_0_0_1_n_n 7 rfl rfl).symm]
  refine Finset.sum_congr rfl fun k _ => ?_
  have hk := contrEquiv1_symm_val dot_S64x7_S7x256_S64x256_1_0_0_1_n_n 7 rfl rfl k
  have el : dot_S64x7_S7x256_S64x256_1_0_0_1_n_n.lhsIdx (ix2 p q) ((contrEquiv1 dot_S64x7_S7x256_S64x256_1_0_0_1_n_n 7 rfl rfl).symm k) = ix2 p k := funext fun a => Fin.ext (by
    match a with
    | ⟨0, _⟩ => exact mm2_l0 _ _
    | ⟨1, _⟩ => exact (dot_S64x7_S7x256_S64x256_1_0_0_1_n_n.lhsIdx_val_of_single rfl _ _).trans hk)
  have er : dot_S64x7_S7x256_S64x256_1_0_0_1_n_n.rhsIdx (ix2 p q) ((contrEquiv1 dot_S64x7_S7x256_S64x256_1_0_0_1_n_n 7 rfl rfl).symm k) = ix2 k q := funext fun a => Fin.ext (by
    match a with
    | ⟨0, _⟩ => exact (dot_S64x7_S7x256_S64x256_1_0_0_1_n_n.rhsIdx_val_of_single rfl _ _).trans hk
    | ⟨1, _⟩ => exact mm2_r1 _ _)
  rw [el, er]

/-! ## The payloads at an index -/

/-- The instruction kernel's payload, spelt out. -/
theorem pay0_eq (x0 : Vec Ideal S256x768 .f32) (x1 : Vec Ideal S768x256 .f32) (x2 : Vec Ideal S1x256 .f32) :
    k0_pay1 (F := Ideal) x0 x1 x2
      = addf (matmul dot_S256x768_S768x256_S256x256_1_0_0_1_n_n none (truncf .bf16 x0 bitsLt_bf16_f32) (truncf .bf16 x1 bitsLt_bf16_f32) (constant S256x256 .f32 0x00000000#32))
          (broadcastTo S256x256 (shapeCast S1x256 x2 shapeCasts_S1x256_S1x256) broadcasts_S1x256_S256x256) := rfl

/-- Entry (p, q) of the instruction kernel's payload: row p of the embeddings against column q, plus the bias at q. -/
theorem pay0 (x0 : Vec Ideal S256x768 .f32) (x1 : Vec Ideal S768x256 .f32) (x2 : Vec Ideal S1x256 .f32) (p q : Fin 256) :
    k0_pay1 (F := Ideal) x0 x1 x2 (ix2 p q) = lin (fun k => x0 (ix2 p k)) x1 q (x2 (ix2 0 q)) := by
  rw [pay0_eq, shapeCast_self]
  show (matmul dot_S256x768_S768x256_S256x256_1_0_0_1_n_n none (truncf .bf16 x0 bitsLt_bf16_f32) (truncf .bf16 x1 bitsLt_bf16_f32) (constant S256x256 .f32 0x00000000#32) : FVec Ideal S256x256 .f32) (ix2 p q)
    + (broadcastTo S256x256 x2 broadcasts_S1x256_S256x256 : FVec Ideal S256x256 .f32) (ix2 p q) = _
  rw [mm0, broadcastTo_1b_ab_apply]
  rfl

/-- The current-object kernel's payload, spelt out. -/
theorem pay1_eq (x0 : Vec Ideal S4096x256 .f32) (x1 : Vec Ideal S256x256 .f32) (x2 : Vec Ideal S1x256 .f32) :
    k1_pay1 (F := Ideal) x0 x1 x2
      = addf (matmul dot_S4096x256_S256x256_S4096x256_1_0_0_1_n_n none (truncf .bf16 (shapeCast S4096x256 x0 shapeCasts_S4096x256_S4096x256) bitsLt_bf16_f32) (truncf .bf16 x1 bitsLt_bf16_f32) (constant S4096x256 .f32 0x00000000#32))
          (broadcastTo S4096x256 (shapeCast S1x256 x2 shapeCasts_S1x256_S1x256) broadcasts_S1x256_S4096x256) := rfl

/-- Entry (p, q) of the current-object kernel's payload. -/
theorem pay1 (x0 : Vec Ideal S4096x256 .f32) (x1 : Vec Ideal S256x256 .f32) (x2 : Vec Ideal S1x256 .f32) (p : Fin 4096) (q : Fin 256) :
    k1_pay1 (F := Ideal) x0 x1 x2 (ix2 p q) = lin (fun k => x0 (ix2 p k)) x1 q (x2 (ix2 0 q)) := by
  rw [pay1_eq, shapeCast_self, shapeCast_self]
  show (matmul dot_S4096x256_S256x256_S4096x256_1_0_0_1_n_n none (truncf .bf16 x0 bitsLt_bf16_f32) (truncf .bf16 x1 bitsLt_bf16_f32) (constant S4096x256 .f32 0x00000000#32) : FVec Ideal S4096x256 .f32) (ix2 p q)
    + (broadcastTo S4096x256 x2 broadcasts_S1x256_S4096x256 : FVec Ideal S4096x256 .f32) (ix2 p q) = _
  rw [mm1, broadcastTo_1b_ab_apply]
  rfl

/-- The demonstration kernel's object payload, spelt out. -/
theorem pay2a_eq (x0 : Vec Ideal S1x64x64x256 .f32) (x1 : Vec Ideal S256x256 .f32) (x2 : Vec Ideal S1x256 .f32) :
    k2_pay1 (F := Ideal) x0 x1 x2
      = shapeCast S64x1x64x256 (shapeCast S64x64x256
          (addf (matmul dot_S4096x256_S256x256_S4096x256_1_0_0_1_n_n none
              (shapeCast S4096x256 (truncf .bf16 (shapeCast S64x64x256 x0 shapeCasts_S1x64x64x256_S64x64x256) bitsLt_bf16_f32) shapeCasts_S64x64x256_S4096x256)
              (truncf .bf16 x1 bitsLt_bf16_f32) (constant S4096x256 .f32 0x00000000#32))
            (broadcastTo S4096x256 (shapeCast S1x256 x2 shapeCasts_S1x256_S1x256) broadcasts_S1x256_S4096x256))
          shapeCasts_S4096x256_S64x64x256) shapeCasts_S64x64x256_S64x1x64x256 := rfl

/-- The 64·b + n-th of 4096 rows. -/
def flat (b n : Fin 64) : Fin 4096 := ⟨b.val * 64 + n.val, by have := b.isLt; have := n.isLt; omega⟩

/-- Entry (b, 0, n, q) of the object payload: row (b, n) of the loaded embeddings against column q, plus the bias at q. -/
theorem pay2a (x0 : Vec Ideal S1x64x64x256 .f32) (x1 : Vec Ideal S256x256 .f32) (x2 : Vec Ideal S1x256 .f32)
    (b : Fin 64) (u : Fin 1) (n : Fin 64) (q : Fin 256) :
    k2_pay1 (F := Ideal) x0 x1 x2 (ix4 b u n q) = lin (fun k => x0 (ix4 (0 : Fin 1) b n k)) x1 q (x2 (ix2 0 q)) := by
  have hu : u.val = 0 := by omega
  rw [pay2a_eq, shapeCast_self]
  -- the two casts back: entry (b, 0, n, q) of the 64×1×64×256 is entry (64·b + n, q) of the 4096×256
  refine (shapeCast_apply _ shapeCasts_S64x64x256_S64x1x64x256 (ix4 b u n q) (ix3 b n q) (by
    rw [Shape.rowMajor_val_three, Shape.rowMajor_val_four]
    show (b.val * 64 + n.val) * 256 + q.val = ((b.val * 1 + u.val) * 64 + n.val) * 256 + q.val
    rw [hu]; omega)).trans ?_
  refine (shapeCast_apply _ shapeCasts_S4096x256_S64x64x256 (ix3 b n q) (ix2 (flat b n) q) (by
    rw [Shape.rowMajor_val_two, Shape.rowMajor_val_three]
    show (b.val * 64 + n.val) * 256 + q.val = (b.val * 64 + n.val) * 256 + q.val
    rfl)).trans ?_
  show (matmul dot_S4096x256_S256x256_S4096x256_1_0_0_1_n_n none
      (shapeCast S4096x256 (truncf .bf16 (shapeCast S64x64x256 x0 shapeCasts_S1x64x64x256_S64x64x256) bitsLt_bf16_f32) shapeCasts_S64x64x256_S4096x256)
      (truncf .bf16 x1 bitsLt_bf16_f32) (constant S4096x256 .f32 0x00000000#32) : FVec Ideal S4096x256 .f32) (ix2 (flat b n) q)
    + (broadcastTo S4096x256 x2 broadcasts_S1x256_S4096x256 : FVec Ideal S4096x256 .f32) (ix2 (flat b n) q) = _
  rw [mm1, broadcastTo_1b_ab_apply]
  unfold lin
  refine congrArg (· + x2 (ix2 0 q)) (Finset.sum_congr rfl fun k _ => ?_)
  refine congrArg (· * x1 (ix2 k q)) ?_
  -- the flattening cast: row 64·b + n of the 4096 is entry (b, n) of the 64×64
  refine (shapeCast_apply _ shapeCasts_S64x64x256_S4096x256 (ix2 (flat b n) k) (ix3 b n k) (by
    rw [Shape.rowMajor_val_three, Shape.rowMajor_val_two]
    show (b.val * 64 + n.val) * 256 + k.val = (b.val * 64 + n.val) * 256 + k.val
    rfl)).trans ?_
  exact shapeCast_1abc_abc_apply x0 shapeCasts_S1x64x64x256_S64x64x256 b n k

/-- The demonstration kernel's action payload, spelt out. -/
theorem pay2b_eq (x0 : Vec Ideal S1x64x7 .f32) (x1 : Vec Ideal S7x256 .f32) (x2 : Vec Ideal S1x256 .f32) :
    k2_pay2 (F := Ideal) x0 x1 x2
      = shapeCast S64x1x1x256 (shapeCast S64x1x256
          (addf (matmul dot_S64x7_S7x256_S64x256_1_0_0_1_n_n none (truncf .bf16 (shapeCast S64x7 x0 shapeCasts_S1x64x7_S64x7) bitsLt_bf16_f32) (truncf .bf16 x1 bitsLt_bf16_f32) (constant S64x256 .f32 0x00000000#32))
            (broadcastTo S64x256 (shapeCast S1x256 x2 shapeCasts_S1x256_S1x256) broadcasts_S1x256_S64x256))
          shapeCasts_S64x256_S64x1x256) shapeCasts_S64x1x256_S64x1x1x256 := rfl

/-- Entry (b, 0, 0, q) of the action payload: row b of the loaded actions against column q, plus the bias at q. -/
theorem pay2b (x0 : Vec Ideal S1x64x7 .f32) (x1 : Vec Ideal S7x256 .f32) (x2 : Vec Ideal S1x256 .f32)
    (b : Fin 64) (u v : Fin 1) (q : Fin 256) :
    k2_pay2 (F := Ideal) x0 x1 x2 (ix4 b u v q) = lin (fun k => x0 (ix3 (0 : Fin 1) b k)) x1 q (x2 (ix2 0 q)) := by
  have hu : u.val = 0 := by omega
  have hv : v.val = 0 := by omega
  rw [pay2b_eq, shapeCast_self]
  refine (shapeCast_apply _ shapeCasts_S64x1x256_S64x1x1x256 (ix4 b u v q) (ix3 b u q) (by
    rw [Shape.rowMajor_val_three, Shape.rowMajor_val_four]
    show (b.val * 1 + u.val) * 256 + q.val = ((b.val * 1 + u.val) * 1 + v.val) * 256 + q.val
    rw [hv]; omega)).trans ?_
  refine (shapeCast_apply _ shapeCasts_S64x256_S64x1x256 (ix3 b u q) (ix2 b q) (by
    rw [Shape.rowMajor_val_two, Shape.rowMajor_val_three]
    show b.val * 256 + q.val = (b.val * 1 + u.val) * 256 + q.val
    rw [hu]; omega)).trans ?_
  show (matmul dot_S64x7_S7x256_S64x256_1_0_0_1_n_n none (truncf .bf16 (shapeCast S64x7 x0 shapeCasts_S1x64x7_S64x7) bitsLt_bf16_f32) (truncf .bf16 x1 bitsLt_bf16_f32) (constant S64x256 .f32 0x00000000#32) : FVec Ideal S64x256 .f32) (ix2 b q)
    + (broadcastTo S64x256 x2 broadcasts_S1x256_S64x256 : FVec Ideal S64x256 .f32) (ix2 b q) = _
  rw [mm2, broadcastTo_1b_ab_apply]
  unfold lin
  refine congrArg (· + x2 (ix2 0 q)) (Finset.sum_congr rfl fun k _ => ?_)
  refine congrArg (· * x1 (ix2 k q)) ?_
  exact shapeCast_1ab_ab_apply x0 shapeCasts_S1x64x7_S64x7 b k

end Cert.KernelIdeal.Pay

end
-- ==== Proof.Val0.lean ====
/-
  What region 0 leaves in the instruction-token array: entry (p, q) is row p of the instruction embeddings the region
  finds, against column q of the weight it finds, plus entry q of the bias row it finds. The grid has one point and
  every window's block is its whole array, so the one flushed block is the whole result.
-/
import proofs.«130885_j76063870812687_2_alg».proof.Proof.KernelIdeal.Reg0
import proofs.«130885_j76063870812687_2_alg».proof.Proof.KernelPayload
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.KernelIdeal.Pay Cert.Tok

variable (V : (c : Dev nD) → (b : Ref sig .tc) → Buf (Elt Ideal) ((c : Thread nD τ).loc b))

theorem hz2 : (![0, 0] : Fin 2 → Nat) = fun _ => 0 := funext fun a => by fin_cases a <;> rfl

/-- One instruction token entry. -/
def tok0 (X : S256x768.Idx → EReal) (Wt : S768x256.Idx → EReal) (B : S1x256.Idx → EReal) (p q : Fin 256) : EReal :=
  lin (fun k => X (ix2 p k)) Wt q (B (ix2 0 q))

/-- The instruction tokens as one function of the three arrays the region reads. -/
def G0 (X : S256x768.Idx → EReal) (Wt : S768x256.Idx → EReal) (B : S1x256.Idx → EReal) : S256x256.Idx → EReal :=
  fun i => tok0 X Wt B (i 0) (i 1)

/-- The printed index maps over the one-point grid: every block index is zero. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- What the one point writes back is the whole of `G0` of the arrays as the region finds them. -/
theorem flushed0_eq (c : Dev nD) (t : Fin cfg0.N) :
    (dat0 V c).flushed 3 t = ((cfg0.win 3).blk t).view.read (Elt Ideal) (G0 (V c main_arg0) (V c main_arg4) (V c main_v0)) := by
  show (cfg0.win 3).cut (grid0.coords t) ((dat0 V c).after 3 t) = _
  rw [after0_3]
  unfold out0_3
  rw [View.canon_unit_zero hz2]
  simp only [View.ld_unit_zero (S := S256x768) hz2, View.ld_unit_zero (S := S768x256) hz2, View.ld_unit_zero (S := S1x256) hz2]
  obtain ⟨e00, e01, e10, e11, e20, e21, e30, e31⟩ := idx_facts0 t
  funext j
  obtain ⟨p, q, rfl⟩ : ∃ (p q : Fin 256), j = ix2 p q := ⟨j 0, j 1, eq_ix2 (n0 := 256) (n1 := 256) j⟩
  show k0_pay1 (F := Ideal) (iblk0 V c 0 t) (iblk0 V c 1 t) (iblk0 V c 2 t) (ix2 p q)
    = G0 (V c main_arg0) (V c main_arg4) (V c main_v0) (((cfg0.win 3).blk t).view.emb (ix2 p q))
  have h3 : ((cfg0.win 3).blk t).view.emb (ix2 p q) = ix2 p q := by
    funext a; apply Fin.ext
    match a with
    | ⟨0, _⟩ => show win0_3.index t (0 : Fin 2) * 256 + 1 * p.val = p.val; omega
    | ⟨1, _⟩ => show win0_3.index t (1 : Fin 2) * 256 + 1 * q.val = q.val; omega
  rw [h3]
  refine (pay0 (iblk0 V c 0 t) (iblk0 V c 1 t) (iblk0 V c 2 t) p q).trans ?_
  show lin (fun k => V c main_arg0 (((cfg0.win 0).blk t).view.emb (ix2 p k))) (fun y => V c main_arg4 (((cfg0.win 1).blk t).view.emb y)) q
      (V c main_v0 (((cfg0.win 2).blk t).view.emb (ix2 0 q)))
    = lin (fun k => V c main_arg0 (ix2 p k)) (V c main_arg4) q (V c main_v0 (ix2 0 q))
  refine lin_congr (fun k => congrArg (V c main_arg0) ?_) (funext fun y => congrArg (V c main_arg4) ?_) (congrArg (V c main_v0) ?_)
  · funext a; apply Fin.ext
    match a with
    | ⟨0, _⟩ => show win0_0.index t (0 : Fin 2) * 256 + 1 * p.val = p.val; omega
    | ⟨1, _⟩ => show win0_0.index t (1 : Fin 2) * 768 + 1 * k.val = k.val; omega
  · funext a; apply Fin.ext
    match a with
    | ⟨0, _⟩ => show win0_1.index t (0 : Fin 2) * 768 + 1 * (y 0).val = (y 0).val; omega
    | ⟨1, _⟩ => show win0_1.index t (1 : Fin 2) * 256 + 1 * (y 1).val = (y 1).val; omega
  · funext a; apply Fin.ext
    match a with
    | ⟨0, _⟩ => show win0_2.index t (0 : Fin 2) * 1 + 1 * 0 = 0; omega
    | ⟨1, _⟩ => show win0_2.index t (1 : Fin 2) * 256 + 1 * q.val = q.val; omega

/-- An index of the array is in the point's block iff each coordinate is in the block's range on its axis. -/
theorem mem_blk0 (t : Fin cfg0.N) (i : S256x256.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v1).slice (win0_3.rect t)).set ↔ _
  rw [View.set_slice_whole, Rect.mem_set_unit]
  exact Iff.rfl

/-- The one block covers the array. -/
theorem cover0 (i : S256x256.Idx) : ∃ t : Fin cfg0.N, (cfg0.win 3).flush t = true ∧ i ∈ ((cfg0.win 3).blk t).view.set := by
  refine ⟨t0_0, flush0_3 t0_0, ?_⟩
  obtain ⟨e00, e01, e10, e11, e20, e21, e30, e31⟩ := idx_facts0 t0_0
  rw [mem_blk0]
  intro a
  have h0 : (i 0).val < 256 := (i 0).isLt
  have h1 : (i 1).val < 256 := (i 1).isLt
  match a with
  | ⟨0, _⟩ => show win0_3.index t0_0 (0 : Fin 2) * 256 ≤ (i 0).val ∧ (i 0).val < win0_3.index t0_0 (0 : Fin 2) * 256 + 256; omega
  | ⟨1, _⟩ => show win0_3.index t0_0 (1 : Fin 2) * 256 ≤ (i 1).val ∧ (i 1).val < win0_3.index t0_0 (1 : Fin 2) * 256 + 256; omega

/-- THE ARRAY region 0 leaves: `G0` of the arrays it found. -/
theorem final0 (c : Dev nD) :
    (dat0 V c).arrAt 3 cfg0.N = G0 (V c main_arg0) (V c main_arg4) (V c main_v0) :=
  (dat0 V c).arrAt_eq_of_cover 3 _ (fun t _ => flushed0_eq V c t) cover0

end Cert.KernelIdeal.Val

end
-- ==== Proof.Val1.lean ====
/-
  What region 1 leaves in the flattened current-object token array: entry (r, q) of the 16384×256 is row r of the
  flattened embeddings the region finds, against column q of the weight it finds, plus entry q of the bias row it
  finds. Point t of the four writes rows 4096·t … 4096·t + 4095; the four blocks tile the array.
-/
import proofs.«130885_j76063870812687_2_alg».proof.Proof.KernelIdeal.Reg1
import proofs.«130885_j76063870812687_2_alg».proof.Proof.KernelPayload
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.KernelIdeal.Pay Cert.Tok

variable (V : (c : Dev nD) → (b : Ref sig .tc) → Buf (Elt Ideal) ((c : Thread nD τ).loc b))

theorem hz2' : (![0, 0] : Fin 2 → Nat) = fun _ => 0 := funext fun a => by fin_cases a <;> rfl

/-- One flattened current-object token entry. -/
def tok1 (X : S16384x256.Idx → EReal) (Wt : S256x256.Idx → EReal) (B : S1x256.Idx → EReal) (r : Fin 16384) (q : Fin 256) : EReal :=
  lin (fun k => X (ix2 r k)) Wt q (B (ix2 0 q))

/-- The flattened current-object tokens as one function of the three arrays the region reads. -/
def G1 (X : S16384x256.Idx → EReal) (Wt : S256x256.Idx → EReal) (B : S1x256.Idx → EReal) : S16384x256.Idx → EReal :=
  fun i => tok1 X Wt B (i 0) (i 1)

/-- The printed index maps over the grid: the input rows move with the output rows; weight and bias stay. -/
theorem idx_facts1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 3 ∧ win1_3.index t (1 : Fin 2) = 0 :=
  (by decide +kernel : ∀ t : Fin grid1.N, _)

/-- Every block of rows is some point's. -/
theorem idx_onto1 : ∀ q0 : Fin 4, ∃ t : Fin cfg1.N, win1_3.index t = ![q0.val, 0] :=
  (by decide +kernel : ∀ q0 : Fin 4, ∃ t : Fin grid1.N, win1_3.index t = ![q0.val, 0])

/-- What point `t` writes back is block `t` of `G1` of the arrays as the region finds them. -/
theorem flushed1_eq (c : Dev nD) (t : Fin cfg1.N) :
    (dat1 V c).flushed 3 t = ((cfg1.win 3).blk t).view.read (Elt Ideal) (G1 (V c main_v2) (V c main_arg8) (V c main_v3)) := by
  show (cfg1.win 3).cut (grid1.coords t) ((dat1 V c).after 3 t) = _
  rw [after1_3]
  unfold out1_3
  rw [View.canon_unit_zero hz2']
  simp only [View.ld_unit_zero (S := S4096x256) hz2', View.ld_unit_zero (S := S256x256) hz2', View.ld_unit_zero (S := S1x256) hz2']
  obtain ⟨e00, e01, e10, e11, e20, e21, e30, e31⟩ := idx_facts1 t
  funext j
  obtain ⟨p, q, rfl⟩ : ∃ (p : Fin 4096) (q : Fin 256), j = ix2 p q := ⟨j 0, j 1, eq_ix2 (n0 := 4096) (n1 := 256) j⟩
  show k1_pay1 (F := Ideal) (iblk1 V c 0 t) (iblk1 V c 1 t) (iblk1 V c 2 t) (ix2 p q)
    = G1 (V c main_v2) (V c main_arg8) (V c main_v3) (((cfg1.win 3).blk t).view.emb (ix2 p q))
  have hp : p.val < 4096 := p.isLt
  have h3 : ((cfg1.win 3).blk t).view.emb (ix2 p q)
      = ix2 (⟨win1_3.index t (0 : Fin 2) * 4096 + p.val, by omega⟩ : Fin 16384) q := by
    funext a; apply Fin.ext
    match a with
    | ⟨0, _⟩ => show win1_3.index t (0 : Fin 2) * 4096 + 1 * p.val = win1_3.index t (0 : Fin 2) * 4096 + p.val; omega
    | ⟨1, _⟩ => show win1_3.index t (1 : Fin 2) * 256 + 1 * q.val = q.val; omega
  rw [h3]
  refine (pay1 (iblk1 V c 0 t) (iblk1 V c 1 t) (iblk1 V c 2 t) p q).trans ?_
  show lin (fun k => V c main_v2 (((cfg1.win 0).blk t).view.emb (ix2 p k))) (fun y => V c main_arg8 (((cfg1.win 1).blk t).view.emb y)) q
      (V c main_v3 (((cfg1.win 2).blk t).view.emb (ix2 0 q)))
    = lin (fun k => V c main_v2 (ix2 (⟨win1_3.index t (0 : Fin 2) * 4096 + p.val, by omega⟩ : Fin 16384) k)) (V c main_arg8) q (V c main_v3 (ix2 0 q))
  refine lin_congr (fun k => congrArg (V c main_v2) ?_) (funext fun y => congrArg (V c main_arg8) ?_) (congrArg (V c main_v3) ?_)
  · funext a; apply Fin.ext
    match a with
    | ⟨0, _⟩ => show win1_0.index t (0 : Fin 2) * 4096 + 1 * p.val = win1_3.index t (0 : Fin 2) * 4096 + p.val; omega
    | ⟨1, _⟩ => show win1_0.index t (1 : Fin 2) * 256 + 1 * k.val = k.val; omega
  · funext a; apply Fin.ext
    match a with
    | ⟨0, _⟩ => show win1_1.index t (0 : Fin 2) * 256 + 1 * (y 0).val = (y 0).val; omega
    | ⟨1, _⟩ => show win1_1.index t (1 : Fin 2) * 256 + 1 * (y 1).val = (y 1).val; omega
  · funext a; apply Fin.ext
    match a with
    | ⟨0, _⟩ => show win1_2.index t (0 : Fin 2) * 1 + 1 * 0 = 0; omega
    | ⟨1, _⟩ => show win1_2.index t (1 : Fin 2) * 256 + 1 * q.val = q.val; omega

/-- An index of the array is in point `t`'s block iff each coordinate is in the block's range on its axis. -/
theorem mem_blk1 (t : Fin cfg1.N) (i : S16384x256.Idx) :
    i ∈ ((cfg1.win 3).blk t).view.set ↔ ∀ a : Fin 2, win1_3.index t a * S4096x256.size a ≤ (i a).val ∧ (i a).val < win1_3.index t a * S4096x256.size a + S4096x256.size a := by
  show i ∈ ((View.whole main_v4).slice (win1_3.rect t)).set ↔ _
  rw [View.set_slice_whole, Rect.mem_set_unit]
  exact Iff.rfl

/-- The four blocks cover the array: row r is in the block of point r / 4096. -/
theorem cover1 (i : S16384x256.Idx) : ∃ t : Fin cfg1.N, (cfg1.win 3).flush t = true ∧ i ∈ ((cfg1.win 3).blk t).view.set := by
  have h0 : (i 0).val < 16384 := (i 0).isLt
  have h1 : (i 1).val < 256 := (i 1).isLt
  obtain ⟨t, ht⟩ := idx_onto1 ⟨(i 0).val / 4096, by omega⟩
  have q0 : win1_3.index t (0 : Fin 2) = (i 0).val / 4096 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 256 ≤ (i 1).val ∧ (i 1).val < win1_3.index t (1 : Fin 2) * 256 + 256; omega

/-- THE ARRAY region 1 leaves: `G1` of the arrays it found. -/
theorem final1 (c : Dev nD) :
    (dat1 V c).arrAt 3 cfg1.N = G1 (V c main_v2) (V c main_arg8) (V c main_v3) :=
  (dat1 V c).arrAt_eq_of_cover 3 _ (fun t _ => flushed1_eq V c t) cover1

end Cert.KernelIdeal.Val

end
-- ==== Proof.Val2.lean ====
/-
  What region 2 leaves in the demonstration block, batch-first: entry (B, D, s, q) of the 256×16×65×256 is, for s < 64,
  row (D, B, s) of the demonstration object embeddings the region finds against column q of the object weight plus the
  object bias at q, and for s = 64 row (D, B) of the demonstration actions against column q of the action weight plus the
  action bias at q. Grid point (i, d) writes batches 64·i … 64·i + 63 of demonstration d, all 65 rows; the 64 blocks tile
  the array.
-/
import proofs.«130885_j76063870812687_2_alg».proof.Proof.KernelIdeal.Reg2
import proofs.«130885_j76063870812687_2_alg».proof.Proof.KernelPayload
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.KernelIdeal.Pay Cert.Tok

variable (V : (c : Dev nD) → (b : Ref sig .tc) → Buf (Elt Ideal) ((c : Thread nD τ).loc b))

theorem hz2'' : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One entry of the demonstration block. -/
def tokD (Xo : S16x256x64x256.Idx → EReal) (Xa : S16x256x7.Idx → EReal) (Wo : S256x256.Idx → EReal) (Bo : S1x256.Idx → EReal)
    (Wa : S7x256.Idx → EReal) (Ba : S1x256.Idx → EReal) (B : Fin 256) (D : Fin 16) (s : Fin 65) (q : Fin 256) : EReal :=
  if s.val < 64 then lin (fun k => Xo (ix4 D B (⟨s.val % 64, Nat.mod_lt _ (by decide)⟩ : Fin 64) k)) Wo q (Bo (ix2 0 q))
  else lin (fun k => Xa (ix3 D B k)) Wa q (Ba (ix2 0 q))

/-- The demonstration block as one function of the six arrays the region reads. -/
def G2 (Xo : S16x256x64x256.Idx → EReal) (Xa : S16x256x7.Idx → EReal) (Wo : S256x256.Idx → EReal) (Bo : S1x256.Idx → EReal)
    (Wa : S7x256.Idx → EReal) (Ba : S1x256.Idx → EReal) : S256x16x65x256.Idx → EReal :=
  fun i => tokD Xo Xa Wo Bo Wa Ba (i 0) (i 1) (i 2) (i 3)

/-! ## The output buffer's two pieces, read at an index -/

/-- Rows 0…63 of the 65 hold the earlier store's payload. -/
theorem canon2_obj (p2 : s2_1.shape.Idx → Elt Ideal .f32) (p1 : s2_0.shape.Idx → Elt Ideal .f32)
    (b : Fin 64) (u : Fin 1) (s : Fin 65) (n : Fin 64) (hs : s.val = n.val) (q : Fin 256) :
    View.canon ([⟨s2_1, p2⟩, ⟨s2_0, p1⟩] : List (View.Piece (Elt Ideal) S64x1x65x256 .f32)) (ix4 b u s q) = p1 (ix4 b u n q) := by
  have hn : n.val < 64 := n.isLt
  have hnot : (ix4 b u s q : S64x1x65x256.Idx) ∉ (⟨s2_1, p2⟩ : View.Piece (Elt Ideal) S64x1x65x256 .f32).1.set := by
    show (ix4 b u s q : S64x1x65x256.Idx) ∉ s2_1.set
    rw [Rect.mem_set_unit]
    intro h
    have h64 : 64 ≤ s.val := (h 2).1
    omega
  rw [View.canon_cons_of_not_mem _ _ hnot]
  have he : (ix4 b u s q : S64x1x65x256.Idx) = s2_0.emb (ix4 b u n q) := by
    funext a; apply Fin.ext
    match a with
    | ⟨0, _⟩ => show b.val = 0 + 1 * b.val; omega
    | ⟨1, _⟩ => show u.val = 0 + 1 * u.val; omega
    | ⟨2, _⟩ => show s.val = 0 + 1 * n.val; omega
    | ⟨3, _⟩ => show q.val = 0 + 1 * q.val; omega
  rw [he]
  exact View.canon_cons_emb s2_0 p1 [] _

/-- Row 64 of the 65 holds the later store's payload. -/
theorem canon2_act (p2 : s2_1.shape.Idx → Elt Ideal .f32) (p1 : s2_0.shape.Idx → Elt Ideal .f32)
    (b : Fin 64) (u : Fin 1) (s : Fin 65) (hs : s.val = 64) (q : Fin 256) :
    View.canon ([⟨s2_1, p2⟩, ⟨s2_0, p1⟩] : List (View.Piece (Elt Ideal) S64x1x65x256 .f32)) (ix4 b u s q) = p2 (ix4 b u (0 : Fin 1) q) := by
  have he : (ix4 b u s q : S64x1x65x256.Idx) = s2_1.emb (ix4 b u (0 : Fin 1) q) := by
    funext a; apply Fin.ext
    match a with
    | ⟨0, _⟩ => show b.val = 0 + 1 * b.val; omega
    | ⟨1, _⟩ => show u.val = 0 + 1 * u.val; omega
    | ⟨2, _⟩ => show s.val = 64 + 1 * 0; omega
    | ⟨3, _⟩ => show q.val = 0 + 1 * q.val; omega
  rw [he]
  exact View.canon_cons_emb s2_1 p2 _ _

/-! ## The printed index maps over the grid -/

/-- The object and action blocks are those of the output block's batch tile and demonstration, swapped into
    demonstration-first order; weights and biases stay; the output's tile is below 4 and its demonstration below 16. -/
theorem idx_facts2 : ∀ t : Fin cfg2.N,
    win2_0.index t (0 : Fin 4) = win2_6.index t (1 : Fin 4) ∧ win2_0.index t (1 : Fin 4) = win2_6.index t (0 : Fin 4)
    ∧ win2_0.index t (2 : Fin 4) = 0 ∧ win2_0.index t (3 : Fin 4) = 0
    ∧ win2_1.index t (0 : Fin 3) = win2_6.index t (1 : Fin 4) ∧ win2_1.index t (1 : Fin 3) = win2_6.index t (0 : Fin 4)
    ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 4) ≤ 3 ∧ win2_6.index t (1 : Fin 4) ≤ 15
    ∧ win2_6.index t (2 : Fin 4) = 0 ∧ win2_6.index t (3 : Fin 4) = 0 :=
  (by decide +kernel : ∀ t : Fin grid2.N, _)

/-- Every (batch tile, demonstration) block is some point's. -/
theorem idx_onto2 : ∀ (q0 : Fin 4) (q1 : Fin 16), ∃ t : Fin cfg2.N, win2_6.index t = ![q0.val, q1.val, 0, 0] :=
  (by decide +kernel : ∀ (q0 : Fin 4) (q1 : Fin 16), ∃ t : Fin grid2.N, win2_6.index t = ![q0.val, q1.val, 0, 0])

/-! ## The flushed block -/

/-- What point `t` writes back is block `t` of `G2` of the arrays as the region finds them. -/
theorem flushed2_eq (c : Dev nD) (t : Fin cfg2.N) :
    (dat2 V c).flushed 6 t = ((cfg2.win 6).blk t).view.read (Elt Ideal)
      (G2 (V c main_arg1) (V c main_arg2) (V c main_arg8) (V c main_v6) (V c main_arg6) (V c main_v7)) := by
  show (cfg2.win 6).cut (grid2.coords t) ((dat2 V c).after 6 t) = _
  rw [after2_6]
  unfold out2_6
  simp only [View.ld_unit_zero (S := S1x64x64x256) hz4, View.ld_unit_zero (S := S1x64x7) hz3, View.ld_unit_zero (S := S256x256) hz2'',
    View.ld_unit_zero (S := S1x256) hz2'', View.ld_unit_zero (S := S7x256) hz2'']
  obtain ⟨f00, f01, f02, f03, f10, f11, f12, f20, f21, f30, f31, f40, f41, f50, f51, f60, f61, f62, f63⟩ := idx_facts2 t
  funext j
  obtain ⟨b, u, s, q, rfl⟩ : ∃ (b : Fin 64) (u : Fin 1) (s : Fin 65) (q : Fin 256), j = ix4 b u s q :=
    ⟨j 0, j 1, j 2, j 3, eq_ix4 (n0 := 64) (n1 := 1) (n2 := 65) (n3 := 256) j⟩
  have hb : b.val < 64 := b.isLt
  have hu : u.val = 0 := by omega
  have hs65 : s.val < 65 := s.isLt
  show View.canon ([⟨s2_1, k2_pay2 (F := Ideal) (iblk2 V c 1 t) (iblk2 V c 4 t) (iblk2 V c 5 t)⟩,
      ⟨s2_0, k2_pay1 (F := Ideal) (iblk2 V c 0 t) (iblk2 V c 2 t) (iblk2 V c 3 t)⟩] : List (View.Piece (Elt Ideal) S64x1x65x256 .f32)) (ix4 b u s q)
    = G2 (V c main_arg1) (V c main_arg2) (V c main_arg8) (V c main_v6) (V c main_arg6) (V c main_v7) (((cfg2.win 6).blk t).view.emb (ix4 b u s q))
  have h6 : ((cfg2.win 6).blk t).view.emb (ix4 b u s q)
      = ix4 (⟨win2_6.index t (0 : Fin 4) * 64 + b.val, by omega⟩ : Fin 256) (⟨win2_6.index t (1 : Fin 4), by omega⟩ : Fin 16) s q := by
    funext a; apply Fin.ext
    match a with
    | ⟨0, _⟩ => show win2_6.index t (0 : Fin 4) * 64 + 1 * b.val = win2_6.index t (0 : Fin 4) * 64 + b.val; omega
    | ⟨1, _⟩ => show win2_6.index t (1 : Fin 4) * 1 + 1 * u.val = win2_6.index t (1 : Fin 4); omega
    | ⟨2, _⟩ => show win2_6.index t (2 : Fin 4) * 65 + 1 * s.val = s.val; omega
    | ⟨3, _⟩ => show win2_6.index t (3 : Fin 4) * 256 + 1 * q.val = q.val; omega
  rw [h6]
  show _ = tokD (V c main_arg1) (V c main_arg2) (V c main_arg8) (V c main_v6) (V c main_arg6) (V c main_v7)
    (⟨win2_6.index t (0 : Fin 4) * 64 + b.val, by omega⟩ : Fin 256) (⟨win2_6.index t (1 : Fin 4), by omega⟩ : Fin 16) s q
  unfold tokD
  by_cases hs : s.val < 64
  · -- rows 0…63: the projected objects
    rw [if_pos hs, canon2_obj _ _ b u s ⟨s.val, hs⟩ rfl q]
    refine (pay2a (iblk2 V c 0 t) (iblk2 V c 2 t) (iblk2 V c 3 t) b u ⟨s.val, hs⟩ q).trans ?_
    show lin (fun k => V c main_arg1 (((cfg2.win 0).blk t).view.emb (ix4 (0 : Fin 1) b (⟨s.val, hs⟩ : Fin 64) k)))
        (fun y => V c main_arg8 (((cfg2.win 2).blk t).view.emb y)) q (V c main_v6 (((cfg2.win 3).blk t).view.emb (ix2 0 q)))
      = lin (fun k => V c main_arg1 (ix4 (⟨win2_6.index t (1 : Fin 4), by omega⟩ : Fin 16) (⟨win2_6.index t (0 : Fin 4) * 64 + b.val, by omega⟩ : Fin 256)
          (⟨s.val % 64, Nat.mod_lt _ (by decide)⟩ : Fin 64) k)) (V c main_arg8) q (V c main_v6 (ix2 0 q))
    refine lin_congr (fun k => congrArg (V c main_arg1) ?_) (funext fun y => congrArg (V c main_arg8) ?_) (congrArg (V c main_v6) ?_)
    · funext a; apply Fin.ext
      match a with
      | ⟨0, _⟩ => show win2_0.index t (0 : Fin 4) * 1 + 1 * 0 = win2_6.index t (1 : Fin 4); omega
      | ⟨1, _⟩ => show win2_0.index t (1 : Fin 4) * 64 + 1 * b.val = win2_6.index t (0 : Fin 4) * 64 + b.val; omega
      | ⟨2, _⟩ => show win2_0.index t (2 : Fin 4) * 64 + 1 * s.val = s.val % 64; omega
      | ⟨3, _⟩ => show win2_0.index t (3 : Fin 4) * 256 + 1 * k.val = k.val; omega
    · funext a; apply Fin.ext
      match a with
      | ⟨0, _⟩ => show win2_2.index t (0 : Fin 2) * 256 + 1 * (y 0).val = (y 0).val; omega
      | ⟨1, _⟩ => show win2_2.index t (1 : Fin 2) * 256 + 1 * (y 1).val = (y 1).val; omega
    · funext a; apply Fin.ext
      match a with
      | ⟨0, _⟩ => show win2_3.index t (0 : Fin 2) * 1 + 1 * 0 = 0; omega
      | ⟨1, _⟩ => show win2_3.index t (1 : Fin 2) * 256 + 1 * q.val = q.val; omega
  · -- row 64: the projected action
    have hs64 : s.val = 64 := by omega
    rw [if_neg hs, canon2_act _ _ b u s hs64 q]
    refine (pay2b (iblk2 V c 1 t) (iblk2 V c 4 t) (iblk2 V c 5 t) b u (0 : Fin 1) q).trans ?_
    show lin (fun k => V c main_arg2 (((cfg2.win 1).blk t).view.emb (ix3 (0 : Fin 1) b k)))
        (fun y => V c main_arg6 (((cfg2.win 4).blk t).view.emb y)) q (V c main_v7 (((cfg2.win 5).blk t).view.emb (ix2 0 q)))
      = lin (fun k => V c main_arg2 (ix3 (⟨win2_6.index t (1 : Fin 4), by omega⟩ : Fin 16) (⟨win2_6.index t (0 : Fin 4) * 64 + b.val, by omega⟩ : Fin 256) k))
          (V c main_arg6) q (V c main_v7 (ix2 0 q))
    refine lin_congr (fun k => congrArg (V c main_arg2) ?_) (funext fun y => congrArg (V c main_arg6) ?_) (congrArg (V c main_v7) ?_)
    · funext a; apply Fin.ext
      match a with
      | ⟨0, _⟩ => show win2_1.index t (0 : Fin 3) * 1 + 1 * 0 = win2_6.index t (1 : Fin 4); omega
      | ⟨1, _⟩ => show win2_1.index t (1 : Fin 3) * 64 + 1 * b.val = win2_6.index t (0 : Fin 4) * 64 + b.val; omega
      | ⟨2, _⟩ => show win2_1.index t (2 : Fin 3) * 7 + 1 * k.val = k.val; omega
    · funext a; apply Fin.ext
      match a with
      | ⟨0, _⟩ => show win2_4.index t (0 : Fin 2) * 7 + 1 * (y 0).val = (y 0).val; omega
      | ⟨1, _⟩ => show win2_4.index t (1 : Fin 2) * 256 + 1 * (y 1).val = (y 1).val; omega
    · funext a; apply Fin.ext
      match a with
      | ⟨0, _⟩ => show win2_5.index t (0 : Fin 2) * 1 + 1 * 0 = 0; omega
      | ⟨1, _⟩ => show win2_5.index t (1 : Fin 2) * 256 + 1 * q.val = q.val; omega

/-! ## The cover and the whole array -/

/-- An index of the array is in point `t`'s block iff each coordinate is in the block's range on its axis. -/
theorem mem_blk2 (t : Fin cfg2.N) (i : S256x16x65x256.Idx) :
    i ∈ ((cfg2.win 6).blk t).view.set ↔ ∀ a : Fin 4, win2_6.index t a * S64x1x65x256.size a ≤ (i a).val ∧ (i a).val < win2_6.index t a * S64x1x65x256.size a + S64x1x65x256.size a := by
  show i ∈ ((View.whole main_v8).slice (win2_6.rect t)).set ↔ _
  rw [View.set_slice_whole, Rect.mem_set_unit]
  exact Iff.rfl

/-- The 64 blocks cover the array: batch B of demonstration D is in the block of point (B / 64, D). -/
theorem cover2 (i : S256x16x65x256.Idx) : ∃ t : Fin cfg2.N, (cfg2.win 6).flush t = true ∧ i ∈ ((cfg2.win 6).blk t).view.set := by
  have h0 : (i 0).val < 256 := (i 0).isLt
  have h1 : (i 1).val < 16 := (i 1).isLt
  have h2 : (i 2).val < 65 := (i 2).isLt
  have h3 : (i 3).val < 256 := (i 3).isLt
  obtain ⟨t, ht⟩ := idx_onto2 ⟨(i 0).val / 64, by omega⟩ ⟨(i 1).val, h1⟩
  have q0 : win2_6.index t (0 : Fin 4) = (i 0).val / 64 := congrFun ht 0
  have q1 : win2_6.index t (1 : Fin 4) = (i 1).val := congrFun ht 1
  have q2 : win2_6.index t (2 : Fin 4) = 0 := congrFun ht 2
  have q3 : win2_6.index t (3 : Fin 4) = 0 := congrFun ht 3
  refine ⟨t, flush2_6 t, ?_⟩
  rw [mem_blk2]
  intro a
  match a with
  | ⟨0, _⟩ => show win2_6.index t (0 : Fin 4) * 64 ≤ (i 0).val ∧ (i 0).val < win2_6.index t (0 : Fin 4) * 64 + 64; omega
  | ⟨1, _⟩ => show win2_6.index t (1 : Fin 4) * 1 ≤ (i 1).val ∧ (i 1).val < win2_6.index t (1 : Fin 4) * 1 + 1; omega
  | ⟨2, _⟩ => show win2_6.index t (2 : Fin 4) * 65 ≤ (i 2).val ∧ (i 2).val < win2_6.index t (2 : Fin 4) * 65 + 65; omega
  | ⟨3, _⟩ => show win2_6.index t (3 : Fin 4) * 256 ≤ (i 3).val ∧ (i 3).val < win2_6.index t (3 : Fin 4) * 256 + 256; omega

/-- THE ARRAY region 2 leaves: `G2` of the arrays it found. -/
theorem final2 (c : Dev nD) :
    (dat2 V c).arrAt 6 cfg2.N = G2 (V c main_arg1) (V c main_arg2) (V c main_arg8) (V c main_v6) (V c main_arg6) (V c main_v7) :=
  (dat2 V c).arrAt_eq_of_cover 6 _ (fun t _ => flushed2_eq V c t) cover2

end Cert.KernelIdeal.Val

end
-- ==== Proof.RefValue.lean ====
/-
  The reference's value: what its three pieces hold, index by index, as functions of the argument arrays — the
  instruction tokens, the current-object tokens, and the demonstration block (batch-first: rows 0…63 of each
  demonstration's 65 are its projected objects, row 64 its projected action). Every entry is one token entry
  `Tok.lin`: a row of an input against a weight column, plus a bias entry.
-/
import proofs.«130885_j76063870812687_2_alg».proof.Proof.Gen.ReferenceIdeal.Read
import proofs.«130885_j76063870812687_2_alg».proof.Proof.Affine

noncomputable section

namespace Cert.ReferenceIdeal.RefValue

open Idealize.ShloMosaic Idealize.ShloMosaic.ValueIdx Cert.ReferenceIdeal Cert.ReferenceIdeal.Gen Cert.ReferenceIdeal.Read Cert.Tok

/-- The instruction tokens: entry (p, q) is row p of the instruction embeddings against column q of the instruction
    weight, plus the instruction bias at q. -/
theorem instr_at (x0 : (⟨S256x768, .f32⟩ : BufTy).Contents (Elt Ideal)) (x4 : (⟨S768x256, .f32⟩ : BufTy).Contents (Elt Ideal))
    (x5 : (⟨S256, .f32⟩ : BufTy).Contents (Elt Ideal)) (p q : Fin 256) :
    val_main_v3 (F := Ideal) x0 x4 x5 (ix2 p q) = lin (fun k => x0 (ix2 p k)) x4 q (x5 (ix1 q)) := by
  rw [val_main_v3_apply, val_main_v0_apply, val_main_v2_apply, val_main_v1_apply]
  have e1 : ∀ k : Fin 768, lidx_main_v0 (ix2 p q) k = ix2 p k := fun k => funext fun a => by
    match a with
    | ⟨0, _⟩ => rfl
    | ⟨1, _⟩ => rfl
  have e2 : ∀ k : Fin 768, ridx_main_v0 (ix2 p q) k = ix2 k q := fun k => funext fun a => by
    match a with
    | ⟨0, _⟩ => rfl
    | ⟨1, _⟩ => rfl
  have e3 : idx_main_v1 (idx_main_v2 (ix2 p q)) = ix1 q := funext fun a => by
    match a with
    | ⟨0, _⟩ => rfl
  simp only [e1, e2, e3]
  rfl

/-- The current-object tokens: entry (b, n, q) is row (b, n) of the current object embeddings against column q of the
    object weight, plus the object bias at q. -/
theorem cur_at (x3 : (⟨S256x64x256, .f32⟩ : BufTy).Contents (Elt Ideal)) (x8 : (⟨S256x256, .f32⟩ : BufTy).Contents (Elt Ideal))
    (x9 : (⟨S256, .f32⟩ : BufTy).Contents (Elt Ideal)) (b : Fin 256) (n : Fin 64) (q : Fin 256) :
    val_main_v15 (F := Ideal) x3 x8 x9 (ix3 b n q) = lin (fun k => x3 (ix3 b n k)) x8 q (x9 (ix1 q)) := by
  rw [val_main_v15_apply, val_main_v12_apply, val_main_v14_apply, val_main_v13_apply]
  have e1 : ∀ k : Fin 256, lidx_main_v12 (ix3 b n q) k = ix3 b n k := fun k => funext fun a => by
    match a with
    | ⟨0, _⟩ => rfl
    | ⟨1, _⟩ => rfl
    | ⟨2, _⟩ => rfl
  have e2 : ∀ k : Fin 256, ridx_main_v12 (ix3 b n q) k = ix2 k q := fun k => funext fun a => by
    match a with
    | ⟨0, _⟩ => rfl
    | ⟨1, _⟩ => rfl
  have e3 : idx_main_v13 (idx_main_v14 (ix3 b n q)) = ix1 q := funext fun a => by
    match a with
    | ⟨0, _⟩ => rfl
  simp only [e1, e2, e3]
  rfl

/-- A demonstration's projected objects, before the layout: entry (d, b, n, q) is row (d, b, n) of the demonstration
    object embeddings against column q of the object weight, plus the object bias at q. -/
theorem obj_at (x1 : (⟨S16x256x64x256, .f32⟩ : BufTy).Contents (Elt Ideal)) (x8 : (⟨S256x256, .f32⟩ : BufTy).Contents (Elt Ideal))
    (x9 : (⟨S256, .f32⟩ : BufTy).Contents (Elt Ideal)) (d : Fin 16) (b : Fin 256) (n : Fin 64) (q : Fin 256) :
    val_main_v7 (F := Ideal) x1 x8 x9 (ix4 d b n q) = lin (fun k => x1 (ix4 d b n k)) x8 q (x9 (ix1 q)) := by
  rw [val_main_v7_apply, val_main_v4_apply, val_main_v6_apply, val_main_v5_apply]
  have e1 : ∀ k : Fin 256, lidx_main_v4 (ix4 d b n q) k = ix4 d b n k := fun k => funext fun a => by
    match a with
    | ⟨0, _⟩ => rfl
    | ⟨1, _⟩ => rfl
    | ⟨2, _⟩ => rfl
    | ⟨3, _⟩ => rfl
  have e2 : ∀ k : Fin 256, ridx_main_v4 (ix4 d b n q) k = ix2 k q := fun k => funext fun a => by
    match a with
    | ⟨0, _⟩ => rfl
    | ⟨1, _⟩ => rfl
  have e3 : idx_main_v5 (idx_main_v6 (ix4 d b n q)) = ix1 q := funext fun a => by
    match a with
    | ⟨0, _⟩ => rfl
  simp only [e1, e2, e3]
  rfl

/-- A demonstration's projected action, before the layout: entry (d, b, q) is row (d, b) of the demonstration actions
    against column q of the action weight, plus the action bias at q. -/
theorem act_at (x2 : (⟨S16x256x7, .f32⟩ : BufTy).Contents (Elt Ideal)) (x6 : (⟨S7x256, .f32⟩ : BufTy).Contents (Elt Ideal))
    (x7 : (⟨S256, .f32⟩ : BufTy).Contents (Elt Ideal)) (d : Fin 16) (b : Fin 256) (q : Fin 256) :
    val_main_v11 (F := Ideal) x2 x6 x7 (ix3 d b q) = lin (fun k => x2 (ix3 d b k)) x6 q (x7 (ix1 q)) := by
  rw [val_main_v11_apply, val_main_v8_apply, val_main_v10_apply, val_main_v9_apply]
  have e1 : ∀ k : Fin 7, lidx_main_v8 (ix3 d b q) k = ix3 d b k := fun k => funext fun a => by
    match a with
    | ⟨0, _⟩ => rfl
    | ⟨1, _⟩ => rfl
    | ⟨2, _⟩ => rfl
  have e2 : ∀ k : Fin 7, ridx_main_v8 (ix3 d b q) k = ix2 k q := fun k => funext fun a => by
    match a with
    | ⟨0, _⟩ => rfl
    | ⟨1, _⟩ => rfl
  have e3 : idx_main_v9 (idx_main_v10 (ix3 d b q)) = ix1 q := funext fun a => by
    match a with
    | ⟨0, _⟩ => rfl
  simp only [e1, e2, e3]
  rfl

/-- The demonstration block, rows 0…63 of the 65: entry (b, d, n, q) is the projected object (d, b, n) at q. -/
theorem demo_obj_at (x1 : (⟨S16x256x64x256, .f32⟩ : BufTy).Contents (Elt Ideal)) (x2 : (⟨S16x256x7, .f32⟩ : BufTy).Contents (Elt Ideal))
    (x6 : (⟨S7x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (b : Fin 256) (d : Fin 16) (s : Fin 65) (n : Fin 64) (hs : s.val = n.val) (q : Fin 256) :
    val_main_v18 (F := Ideal) x1 x2 x6 x7 x8 x9 (ix4 b d s q) = lin (fun k => x1 (ix4 d b n k)) x8 q (x9 (ix1 q)) := by
  rw [val_main_v18_apply]
  unfold val_main_v17
  refine (concatenate_pair_apply_left (t := S16x256x65x256) (s₁ := S16x256x64x256) (s₂ := S16x256x1x256) (2 : Fin 4)
    (val_main_v7 (F := Ideal) x1 x8 x9) (val_main_v16 (F := Ideal) x2 x6 x7) concatenates_S16x256x64x256_S16x256x1x256_S16x256x65x256_d2
    (idx_main_v18 (ix4 b d s q)) rfl (ix4 d b n q) (fun a => ?_)).trans (obj_at x1 x8 x9 d b n q)
  match a with
  | ⟨0, _⟩ => rfl
  | ⟨1, _⟩ => rfl
  | ⟨2, _⟩ => exact hs.symm
  | ⟨3, _⟩ => rfl

/-- The demonstration block, row 64 of the 65: entry (b, d, 64, q) is the projected action (d, b) at q. -/
theorem demo_act_at (x1 : (⟨S16x256x64x256, .f32⟩ : BufTy).Contents (Elt Ideal)) (x2 : (⟨S16x256x7, .f32⟩ : BufTy).Contents (Elt Ideal))
    (x6 : (⟨S7x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (b : Fin 256) (d : Fin 16) (s : Fin 65) (hs : s.val = 64) (q : Fin 256) :
    val_main_v18 (F := Ideal) x1 x2 x6 x7 x8 x9 (ix4 b d s q) = lin (fun k => x2 (ix3 d b k)) x6 q (x7 (ix1 q)) := by
  rw [val_main_v18_apply]
  unfold val_main_v17
  refine (concatenate_pair_apply_right (t := S16x256x65x256) (s₁ := S16x256x64x256) (s₂ := S16x256x1x256) (2 : Fin 4)
    (val_main_v7 (F := Ideal) x1 x8 x9) (val_main_v16 (F := Ideal) x2 x6 x7) concatenates_S16x256x64x256_S16x256x1x256_S16x256x65x256_d2
    (idx_main_v18 (ix4 b d s q)) rfl rfl (ix4 d b (0 : Fin 1) q) (fun a ha => ?_) (by
      show (0 : Nat) + 64 = s.val
      omega)).trans ?_
  · match a with
    | ⟨0, _⟩ => rfl
    | ⟨1, _⟩ => rfl
    | ⟨2, _⟩ => exact absurd rfl ha
    | ⟨3, _⟩ => rfl
  · rw [val_main_v16_apply]
    have e : idx_main_v16 (ix4 d b (0 : Fin 1) q) = ix3 d b q := funext fun a => by
      match a with
      | ⟨0, _⟩ => rfl
      | ⟨1, _⟩ => rfl
      | ⟨2, _⟩ => rfl
    rw [e]
    exact act_at x2 x6 x7 d b q

end Cert.ReferenceIdeal.RefValue

end
-- ==== Proof.Bridge.lean ====
/-
  The two programs compute one array. The kernel program's result is the concatenation, along the sequence axis, of the
  instruction tokens given a unit sequence axis, the demonstration block with its (demonstration, row) axes merged, and
  the current-object tokens; the reference's result is the same concatenation of its own three pieces. So it is enough
  that the three pieces agree, entry by entry: each entry on either side is one token entry — a row of an input against
  a column of a weight, plus a bias entry — and the rows, weights and biases are the same argument entries, read
  through the host reshapes (a bias as a one-row matrix; the current objects flattened to 16384 rows and the tokens
  unflattened again) and through the kernels' blocks.
-/
import proofs.«130885_j76063870812687_2_alg».proof.Proof.KernelIdeal.Run
import proofs.«130885_j76063870812687_2_alg».proof.Proof.Val0
import proofs.«130885_j76063870812687_2_alg».proof.Proof.Val1
import proofs.«130885_j76063870812687_2_alg».proof.Proof.Val2
import proofs.«130885_j76063870812687_2_alg».proof.Proof.RefValue
import Idealize.ShloMosaic.Lib.StableHlo.Run

set_option maxRecDepth 16384

noncomputable section

namespace Cert.KernelIdeal.Val

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Fr Cert.Tok

variable (m : (ℓ : Loc nD τ sig) → Buf (Elt Ideal) ℓ) (ρ : Dev nD → PrngReg)

/-! ## The arguments, as each region and each host stretch finds them -/

theorem W1_arg0 (c : Dev nD) : W1 m ρ c (Proc.devRef .tc main_arg0) = m ((c : Thread nD τ).loc main_arg0) :=
  (W1_of m ρ c main_arg0 (by decide)).trans rfl
theorem W1_arg4 (c : Dev nD) : W1 m ρ c (Proc.devRef .tc main_arg4) = m ((c : Thread nD τ).loc main_arg4) :=
  (W1_of m ρ c main_arg4 (by decide)).trans rfl
theorem W2_arg3 (c : Dev nD) : W2 m ρ c (Proc.devRef .tc main_arg3) = m ((c : Thread nD τ).loc main_arg3) :=
  (W2_of_ne m ρ c main_arg3 (by decide)).trans <| (W1_of m ρ c main_arg3 (by decide)).trans rfl
theorem W2_arg9 (c : Dev nD) : W2 m ρ c (Proc.devRef .tc main_arg9) = m ((c : Thread nD τ).loc main_arg9) :=
  (W2_of_ne m ρ c main_arg9 (by decide)).trans <| (W1_of m ρ c main_arg9 (by decide)).trans rfl
theorem W3_arg8 (c : Dev nD) : W3 m ρ c (Proc.devRef .tc main_arg8) = m ((c : Thread nD τ).loc main_arg8) :=
  (W3_of m ρ c main_arg8 (by decide)).trans <| (W2_of_ne m ρ c main_arg8 (by decide)).trans <| (W1_of m ρ c main_arg8 (by decide)).trans rfl
theorem W4_arg9 (c : Dev nD) : W4 m ρ c (Proc.devRef .tc main_arg9) = m ((c : Thread nD τ).loc main_arg9) :=
  (W4_of_ne m ρ c main_arg9 (by decide)).trans <| (W3_of m ρ c main_arg9 (by decide)).trans (W2_arg9 m ρ c)
theorem W4_arg7 (c : Dev nD) : W4 m ρ c (Proc.devRef .tc main_arg7) = m ((c : Thread nD τ).loc main_arg7) :=
  (W4_of_ne m ρ c main_arg7 (by decide)).trans <| (W3_of m ρ c main_arg7 (by decide)).trans <|
    (W2_of_ne m ρ c main_arg7 (by decide)).trans <| (W1_of m ρ c main_arg7 (by decide)).trans rfl
theorem W5_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
theorem W5_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <|
    (W2_of_ne m ρ c main_arg2 (by decide)).trans <| (W1_of m ρ c main_arg2 (by decide)).trans rfl
theorem W5_arg6 (c : Dev nD) : W5 m ρ c (Proc.devRef .tc main_arg6) = m ((c : Thread nD τ).loc main_arg6) :=
  (W5_of m ρ c main_arg6 (by decide)).trans <| (W4_of_ne m ρ c main_arg6 (by decide)).trans <| (W3_of m ρ c main_arg6 (by decide)).trans <|
    (W2_of_ne m ρ c main_arg6 (by decide)).trans <| (W1_of m ρ c main_arg6 (by decide)).trans rfl
theorem W5_arg8 (c : Dev nD) : W5 m ρ c (Proc.devRef .tc main_arg8) = m ((c : Thread nD τ).loc main_arg8) :=
  (W5_of m ρ c main_arg8 (by decide)).trans <| (W4_in m ρ c 1 rfl).trans (W3_arg8 m ρ c)

/-! ## The buffers the host stretches write before each region -/

/-- The instruction bias as a one-row matrix. -/
theorem W1_v0 (c : Dev nD) :
    W1 m ρ c (Proc.devRef .tc main_v0) = shapeCast S1x256 (m ((c : Thread nD τ).loc main_arg5)) shapeCasts_S256_S1x256 := by
  show StableHlo.after hostOps0 (W0 m ρ c) (Proc.devRef .tc main_v0) = _
  after_results
  rfl
/-- The current object embeddings flattened to 16384 rows. -/
theorem W3_v2 (c : Dev nD) :
    W3 m ρ c (Proc.devRef .tc main_v2) = shapeCast S16384x256 (m ((c : Thread nD τ).loc main_arg3)) shapeCasts_S256x64x256_S16384x256 := by
  show StableHlo.after hostOps1 (W2 m ρ c) (Proc.devRef .tc main_v2) = _
  after_results
  rw [W2_arg3]
  rfl
/-- The object bias as a one-row matrix, for region 1. -/
theorem W3_v3 (c : Dev nD) :
    W3 m ρ c (Proc.devRef .tc main_v3) = shapeCast S1x256 (m ((c : Thread nD τ).loc main_arg9)) shapeCasts_S256_S1x256 := by
  show StableHlo.after hostOps1 (W2 m ρ c) (Proc.devRef .tc main_v3) = _
  after_results
  rw [W2_arg9]
  rfl
/-- The object bias as a one-row matrix, for region 2. -/
theorem W5_v6 (c : Dev nD) :
    W5 m ρ c (Proc.devRef .tc main_v6) = shapeCast S1x256 (m ((c : Thread nD τ).loc main_arg9)) shapeCasts_S256_S1x256 := by
  show StableHlo.after hostOps2 (W4 m ρ c) (Proc.devRef .tc main_v6) = _
  after_results
  rw [W4_arg9]
  rfl
/-- The action bias as a one-row matrix. -/
theorem W5_v7 (c : Dev nD) :
    W5 m ρ c (Proc.devRef .tc main_v7) = shapeCast S1x256 (m ((c : Thread nD τ).loc main_arg7)) shapeCasts_S256_S1x256 := by
  show StableHlo.after hostOps2 (W4 m ρ c) (Proc.devRef .tc main_v7) = _
  after_results
  rw [W4_arg7]
  rfl
/-- The current-object tokens back in three axes. -/
theorem W5_v5 (c : Dev nD) :
    W5 m ρ c (Proc.devRef .tc main_v5) = shapeCast S256x64x256 (W4 m ρ c (Proc.devRef .tc main_v4)) shapeCasts_S16384x256_S256x64x256 := by
  show StableHlo.after hostOps2 (W4 m ρ c) (Proc.devRef .tc main_v5) = _
  after_results
  rfl

/-! ## The three pieces, as the last stretch finds them, are the reference's -/

/-- The instruction tokens. -/
theorem piece_instr (c : Dev nD) :
    W6 m ρ c (Proc.devRef .tc main_v1)
      = Cert.ReferenceIdeal.Read.val_main_v3 (F := Ideal) (m ((c : Thread nD τ).loc main_arg0)) (m ((c : Thread nD τ).loc main_arg4)) (m ((c : Thread nD τ).loc main_arg5)) := by
  refine ((W6_of_ne m ρ c main_v1 (by decide)).trans <| (W5_of m ρ c main_v1 (by decide)).trans <|
    (W4_of_ne m ρ c main_v1 (by decide)).trans <| (W3_of m ρ c main_v1 (by decide)).trans <|
    (W2_arr m ρ c 3).trans (final0 (U1 m ρ) c)).trans ?_
  funext i
  obtain ⟨p, q, rfl⟩ : ∃ (p q : Fin 256), i = ix2 p q := ⟨i 0, i 1, eq_ix2 (n0 := 256) (n1 := 256) i⟩
  show lin (fun k => W1 m ρ c (Proc.devRef .tc main_arg0) (ix2 p k)) (W1 m ρ c (Proc.devRef .tc main_arg4)) q (W1 m ρ c (Proc.devRef .tc main_v0) (ix2 0 q)) = _
  rw [Cert.ReferenceIdeal.RefValue.instr_at, W1_arg0, W1_arg4, W1_v0]
  exact congrArg (lin _ _ q) (shapeCast_a_1a_apply _ shapeCasts_S256_S1x256 0 q)

/-- Row 64·b + n of the 16384. -/
def flatRow (b : Fin 256) (n : Fin 64) : Fin 16384 := ⟨b.val * 64 + n.val, by have := b.isLt; have := n.isLt; omega⟩

/-- The current-object tokens. -/
theorem piece_cur (c : Dev nD) :
    W6 m ρ c (Proc.devRef .tc main_v5)
      = Cert.ReferenceIdeal.Read.val_main_v15 (F := Ideal) (m ((c : Thread nD τ).loc main_arg3)) (m ((c : Thread nD τ).loc main_arg8)) (m ((c : Thread nD τ).loc main_arg9)) := by
  refine ((W6_of_ne m ρ c main_v5 (by decide)).trans (W5_v5 m ρ c)).trans ?_
  rw [show W4 m ρ c (Proc.devRef .tc main_v4) = G1 (U3 m ρ c main_v2) (U3 m ρ c main_arg8) (U3 m ρ c main_v3) from
    (W4_arr m ρ c 3).trans (final1 (U3 m ρ) c)]
  funext i
  obtain ⟨b, n, q, rfl⟩ : ∃ (b : Fin 256) (n : Fin 64) (q : Fin 256), i = ix3 b n q :=
    ⟨i 0, i 1, i 2, eq_ix3 (n0 := 256) (n1 := 64) (n2 := 256) i⟩
  -- entry (b, n, q) of the unflattened tokens is entry (64·b + n, q) of the flattened ones
  refine (shapeCast_apply _ shapeCasts_S16384x256_S256x64x256 (ix3 b n q) (ix2 (flatRow b n) q) (by
    rw [Shape.rowMajor_val_two, Shape.rowMajor_val_three]
    show (b.val * 64 + n.val) * 256 + q.val = (b.val * 64 + n.val) * 256 + q.val
    rfl)).trans ?_
  show lin (fun k => W3 m ρ c (Proc.devRef .tc main_v2) (ix2 (flatRow b n) k)) (W3 m ρ c (Proc.devRef .tc main_arg8)) q
    (W3 m ρ c (Proc.devRef .tc main_v3) (ix2 0 q)) = _
  rw [Cert.ReferenceIdeal.RefValue.cur_at, W3_arg8, W3_v2, W3_v3]
  refine lin_congr (fun k => ?_) rfl (shapeCast_a_1a_apply _ shapeCasts_S256_S1x256 0 q)
  -- row 64·b + n of the flattened embeddings is row (b, n) of the embeddings
  exact shapeCast_apply _ shapeCasts_S256x64x256_S16384x256 (ix2 (flatRow b n) k) (ix3 b n k) (by
    rw [Shape.rowMajor_val_three, Shape.rowMajor_val_two]
    show (b.val * 64 + n.val) * 256 + k.val = (b.val * 64 + n.val) * 256 + k.val
    rfl)

/-- The demonstration block. -/
theorem piece_demo (c : Dev nD) :
    W6 m ρ c (Proc.devRef .tc main_v8)
      = Cert.ReferenceIdeal.Read.val_main_v18 (F := Ideal) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) := by
  refine ((W6_arr m ρ c 6).trans (final2 (U5 m ρ) c)).trans ?_
  funext i
  obtain ⟨B, D, s, q, rfl⟩ : ∃ (B : Fin 256) (D : Fin 16) (s : Fin 65) (q : Fin 256), i = ix4 B D s q :=
    ⟨i 0, i 1, i 2, i 3, eq_ix4 (n0 := 256) (n1 := 16) (n2 := 65) (n3 := 256) i⟩
  show tokD (W5 m ρ c (Proc.devRef .tc main_arg1)) (W5 m ρ c (Proc.devRef .tc main_arg2)) (W5 m ρ c (Proc.devRef .tc main_arg8))
    (W5 m ρ c (Proc.devRef .tc main_v6)) (W5 m ρ c (Proc.devRef .tc main_arg6)) (W5 m ρ c (Proc.devRef .tc main_v7)) B D s q = _
  rw [W5_arg1, W5_arg2, W5_arg8, W5_arg6, W5_v6, W5_v7]
  unfold tokD
  by_cases hs : s.val < 64
  · rw [if_pos hs, Cert.ReferenceIdeal.RefValue.demo_obj_at _ _ _ _ _ _ B D s (⟨s.val % 64, Nat.mod_lt _ (by decide)⟩ : Fin 64)
      (by show s.val = s.val % 64; omega) q]
    exact congrArg (lin _ _ q) (shapeCast_a_1a_apply _ shapeCasts_S256_S1x256 0 q)
  · rw [if_neg hs, Cert.ReferenceIdeal.RefValue.demo_act_at _ _ _ _ _ _ B D s (by have := s.isLt; omega) q]
    exact congrArg (lin _ _ q) (shapeCast_a_1a_apply _ shapeCasts_S256_S1x256 0 q)

/-! ## The result -/

/-- The last stretch, from any contents: the result buffer ends at the concatenation, along the sequence axis, of the
    instruction tokens given a unit sequence axis, the demonstration block with its two middle axes merged, and the
    current-object tokens. -/
theorem tail_eq (Wv : Valuation τ sig (Elt Ideal)) :
    StableHlo.after hostOps3 Wv (Proc.devRef .tc main_v11)
      = concatenate S256x1105x256 1 [⟨S256x1x256, broadcastInDim S256x1x256 ![0, 2] bcast_S256x256_S256x1x256_0_2 (Wv (Proc.devRef .tc main_v1))⟩,
          ⟨S256x1040x256, shapeCast S256x1040x256 (Wv (Proc.devRef .tc main_v8)) shapeCasts_S256x16x65x256_S256x1040x256⟩,
          ⟨S256x64x256, Wv (Proc.devRef .tc main_v5)⟩] concatenates_S256x1x256_S256x1040x256_S256x64x256_S256x1105x256_d1 := by
  after_results <;> rfl

/-- THE BRIDGE: what @main of the kernel program returns is the reference's result term of the same arguments. -/
theorem result_eq (c : Dev nD) :
    W7 m ρ c (Proc.devRef .tc main_v11)
      = Cert.ReferenceIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W6 m ρ c) (Proc.devRef .tc main_v11) = _
  rw [tail_eq, piece_instr, piece_demo, piece_cur]
  rfl

end Cert.KernelIdeal.Val

end
-- ==== Proof.lean ====
/-
  A multimodal sequence builder: three linear projections — the instruction embeddings (256×768 by 768×256), the
  current object embeddings (256·64 rows by 256×256) and, fused in one kernel, each demonstration's object embeddings
  and its action (7 features by 7×256) — each a matrix product plus a bias row, laid out batch-first as
  [instruction token | per demonstration: 64 object tokens, 1 action token | 64 current-object tokens], 1105 tokens of
  256 entries for each of 256 batches.

  The kernel program is three kernel regions among four stretches of host reshapes; the reference is plain host
  operations. On the extended reals a change of float format is the identity and a matrix product into the zero
  accumulator is the plain sum over the contracted axis, so every entry of the result, on either side, is
  `∑ₖ row k · w (k, q) + bias q` of the same argument entries; only sums and products of extended reals are compared
  term by term, so no finiteness of the inputs is used. The two programs end with the same concatenation of three
  pieces, and the pieces agree entry by entry (Proof/Bridge.lean):
  * the instruction tokens: one grid point, the whole arrays (Proof/Val0.lean);
  * the current-object tokens: four blocks of 4096 flattened rows (Proof/Val1.lean);
  * the demonstration block: a 4×16 grid over (batch tile, demonstration), each point filling rows 0…63 of its 65 with
    object tokens and row 64 with the action token (Proof/Val2.lean), against the reference's concatenate-then-transpose.
  The frames: each region's body runs on its staging buffers (Proof/<Program>/Reg0…2.lean) and @main is the chain of its
  seven segments (Proof/<Program>/Run.lean), which leaves every argument as launched; the reference's frame is its run.
-/
import proofs.«130885_j76063870812687_2_alg».proof.Defs
import proofs.«130885_j76063870812687_2_alg».proof.Proof.Kernel.Run
import proofs.«130885_j76063870812687_2_alg».proof.Proof.KernelIdeal.Run
import proofs.«130885_j76063870812687_2_alg».proof.Proof.Bridge
import proofs.«130885_j76063870812687_2_alg».proof.Proof.Gen.Kernel
import proofs.«130885_j76063870812687_2_alg».proof.Proof.Gen.KernelIdeal
import proofs.«130885_j76063870812687_2_alg».proof.Proof.Gen.ReferenceIdeal
import proofs.«130885_j76063870812687_2_alg».proof.Proof.Gen.Pre_finite_inputs
import proofs.«130885_j76063870812687_2_alg».proof.Proof.Gen.ReferenceIdeal.Run
import proofs.«130885_j76063870812687_2_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem

/-- The kernel program as printed (bit-level floats): it runs and leaves its arguments as launched. -/
theorem frame_k : Cert.frame_Kernel := fun m ρ _ =>
  (θ_run Cert.Kernel.defs _ _).mono (fun r h c => ⟨
      (h c _ (Cert.Kernel.Fr.mem_uc Cert.Kernel.main_arg0 (by decide))).trans (Cert.Kernel.Fr.W7_main_arg0 m ρ c),
      (h c _ (Cert.Kernel.Fr.mem_uc Cert.Kernel.main_arg1 (by decide))).trans (Cert.Kernel.Fr.W7_main_arg1 m ρ c),
      (h c _ (Cert.Kernel.Fr.mem_uc Cert.Kernel.main_arg2 (by decide))).trans (Cert.Kernel.Fr.W7_main_arg2 m ρ c),
      (h c _ (Cert.Kernel.Fr.mem_uc Cert.Kernel.main_arg3 (by decide))).trans (Cert.Kernel.Fr.W7_main_arg3 m ρ c),
      (h c _ (Cert.Kernel.Fr.mem_uc Cert.Kernel.main_arg4 (by decide))).trans (Cert.Kernel.Fr.W7_main_arg4 m ρ c),
      (h c _ (Cert.Kernel.Fr.mem_uc Cert.Kernel.main_arg5 (by decide))).trans (Cert.Kernel.Fr.W7_main_arg5 m ρ c),
      (h c _ (Cert.Kernel.Fr.mem_uc Cert.Kernel.main_arg6 (by decide))).trans (Cert.Kernel.Fr.W7_main_arg6 m ρ c),
      (h c _ (Cert.Kernel.Fr.mem_uc Cert.Kernel.main_arg7 (by decide))).trans (Cert.Kernel.Fr.W7_main_arg7 m ρ c),
      (h c _ (Cert.Kernel.Fr.mem_uc Cert.Kernel.main_arg8 (by decide))).trans (Cert.Kernel.Fr.W7_main_arg8 m ρ c),
      (h c _ (Cert.Kernel.Fr.mem_uc Cert.Kernel.main_arg9 (by decide))).trans (Cert.Kernel.Fr.W7_main_arg9 m ρ c)⟩)
    (Cert.Kernel.Fr.run_all (F := Bits) m ρ)

/-- The same program on the extended reals. -/
theorem frame_ki : Cert.frame_KernelIdeal := fun m ρ _ =>
  (θ_run Cert.KernelIdeal.defs _ _).mono (fun r h c => ⟨
      (h c _ (Cert.KernelIdeal.Fr.mem_uc Cert.KernelIdeal.main_arg0 (by decide))).trans (Cert.KernelIdeal.Fr.W7_main_arg0 m ρ c),
      (h c _ (Cert.KernelIdeal.Fr.mem_uc Cert.KernelIdeal.main_arg1 (by decide))).trans (Cert.KernelIdeal.Fr.W7_main_arg1 m ρ c),
      (h c _ (Cert.KernelIdeal.Fr.mem_uc Cert.KernelIdeal.main_arg2 (by decide))).trans (Cert.KernelIdeal.Fr.W7_main_arg2 m ρ c),
      (h c _ (Cert.KernelIdeal.Fr.mem_uc Cert.KernelIdeal.main_arg3 (by decide))).trans (Cert.KernelIdeal.Fr.W7_main_arg3 m ρ c),
      (h c _ (Cert.KernelIdeal.Fr.mem_uc Cert.KernelIdeal.main_arg4 (by decide))).trans (Cert.KernelIdeal.Fr.W7_main_arg4 m ρ c),
      (h c _ (Cert.KernelIdeal.Fr.mem_uc Cert.KernelIdeal.main_arg5 (by decide))).trans (Cert.KernelIdeal.Fr.W7_main_arg5 m ρ c),
      (h c _ (Cert.KernelIdeal.Fr.mem_uc Cert.KernelIdeal.main_arg6 (by decide))).trans (Cert.KernelIdeal.Fr.W7_main_arg6 m ρ c),
      (h c _ (Cert.KernelIdeal.Fr.mem_uc Cert.KernelIdeal.main_arg7 (by decide))).trans (Cert.KernelIdeal.Fr.W7_main_arg7 m ρ c),
      (h c _ (Cert.KernelIdeal.Fr.mem_uc Cert.KernelIdeal.main_arg8 (by decide))).trans (Cert.KernelIdeal.Fr.W7_main_arg8 m ρ c),
      (h c _ (Cert.KernelIdeal.Fr.mem_uc Cert.KernelIdeal.main_arg9 (by decide))).trans (Cert.KernelIdeal.Fr.W7_main_arg9 m ρ c)⟩)
    (Cert.KernelIdeal.Fr.run_all (F := Ideal) m ρ)

/-- The reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals, from memories agreeing on the arguments, both programs end with the same result array: the
    kernel program's last boundary contents at its result buffer, which is the reference's result term of the same
    arguments. -/
theorem algebraic : Cert.algebraic_KernelIdeal_ReferenceIdeal := by
  intro m ρ m' ρ' _ hagree
  refine ⟨fun c => Cert.KernelIdeal.Fr.W7 m ρ c (Proc.devRef .tc Cert.KernelIdeal.main_v11), ?_, ?_⟩
  · exact (θ_run Cert.KernelIdeal.defs _ _).mono (fun r h c => ⟨
      h c _ (Cert.KernelIdeal.Fr.mem_uc Cert.KernelIdeal.main_v11 (by decide)),
      (h c _ (Cert.KernelIdeal.Fr.mem_uc Cert.KernelIdeal.main_arg0 (by decide))).trans (Cert.KernelIdeal.Fr.W7_main_arg0 m ρ c),
      (h c _ (Cert.KernelIdeal.Fr.mem_uc Cert.KernelIdeal.main_arg1 (by decide))).trans (Cert.KernelIdeal.Fr.W7_main_arg1 m ρ c),
      (h c _ (Cert.KernelIdeal.Fr.mem_uc Cert.KernelIdeal.main_arg2 (by decide))).trans (Cert.KernelIdeal.Fr.W7_main_arg2 m ρ c),
      (h c _ (Cert.KernelIdeal.Fr.mem_uc Cert.KernelIdeal.main_arg3 (by decide))).trans (Cert.KernelIdeal.Fr.W7_main_arg3 m ρ c),
      (h c _ (Cert.KernelIdeal.Fr.mem_uc Cert.KernelIdeal.main_arg4 (by decide))).trans (Cert.KernelIdeal.Fr.W7_main_arg4 m ρ c),
      (h c _ (Cert.KernelIdeal.Fr.mem_uc Cert.KernelIdeal.main_arg5 (by decide))).trans (Cert.KernelIdeal.Fr.W7_main_arg5 m ρ c),
      (h c _ (Cert.KernelIdeal.Fr.mem_uc Cert.KernelIdeal.main_arg6 (by decide))).trans (Cert.KernelIdeal.Fr.W7_main_arg6 m ρ c),
      (h c _ (Cert.KernelIdeal.Fr.mem_uc Cert.KernelIdeal.main_arg7 (by decide))).trans (Cert.KernelIdeal.Fr.W7_main_arg7 m ρ c),
      (h c _ (Cert.KernelIdeal.Fr.mem_uc Cert.KernelIdeal.main_arg8 (by decide))).trans (Cert.KernelIdeal.Fr.W7_main_arg8 m ρ c),
      (h c _ (Cert.KernelIdeal.Fr.mem_uc Cert.KernelIdeal.main_arg9 (by decide))).trans (Cert.KernelIdeal.Fr.W7_main_arg9 m ρ c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v21_eq, a0, a1, a2, a3, a4, a5, a6, a7, a8, a9]
    exact (Cert.KernelIdeal.Val.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
